-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1000000 32) (main_arg2 : FVec F S256x128 .f32) (main_arg3 : FVec F S128 .f32) (main_arg4 : FVec F S128x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S5000x256 : Shape := ⟨2, ![5000, 256]⟩
abbrev S5000x128 : Shape := ⟨2, ![5000, 128]⟩
abbrev S1100000x128 : Shape := ⟨2, ![1100000, 128]⟩
abbrev S1x128 : Shape := ⟨2, ![1, 128]⟩
abbrev S100000x64 : Shape := ⟨2, ![100000, 64]⟩
abbrev S5000x64 : Shape := ⟨2, ![5000, 64]⟩
abbrev S1100000x64 : Shape := ⟨2, ![1100000, 64]⟩
abbrev S64x64 : Shape := ⟨2, ![64, 64]⟩
abbrev S64x128 : Shape := ⟨2, ![64, 128]⟩
abbrev S1x64 : Shape := ⟨2, ![1, 64]⟩
abbrev S1000000x1 : Shape := ⟨2, ![1000000, 1]⟩
abbrev S1000000x64 : Shape := ⟨2, ![1000000, 64]⟩
abbrev S1x1 : Shape := ⟨2, ![1, 1]⟩
abbrev S5000x1 : Shape := ⟨2, ![5000, 1]⟩
abbrev S5000 : Shape := ⟨1, ![5000]⟩

abbrev nBuf : Space → Nat
  | .hbm => 117
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S1100000, .f32⟩
  | .hbm, ⟨46, _⟩ => ⟨S100000x128, .bf16⟩
  | .hbm, ⟨47, _⟩ => ⟨S1100000x1, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .bf16⟩
  | .hbm, ⟨57, _⟩ => ⟨S1100000x128, .f32⟩
  | .hbm, ⟨58, _⟩ => ⟨S1100000x128, .f32⟩
  | .hbm, ⟨59, _⟩ => ⟨S1100000x128, .f32⟩
  | .hbm, ⟨60, _⟩ => ⟨S_, .f32⟩
  | .hbm, ⟨61, _⟩ => ⟨S100000x128, .f32⟩
  | .hbm, ⟨62, _⟩ => ⟨S1100000x1, .i32⟩
  | .hbm, ⟨63, _⟩ => ⟨S100000x128, .f32⟩
  | .hbm, ⟨64, _⟩ => ⟨S1x128, .f32⟩
  | .hbm, ⟨65, _⟩ => ⟨S100000x64, .bf16⟩
  | .hbm, ⟨66, _⟩ => ⟨S1100000x1, .f32⟩
  | .hbm, ⟨67, _⟩ => ⟨S_, .i32⟩
  | .hbm, ⟨68, _⟩ => ⟨S1100000, .i32⟩
  | .hbm, ⟨69, _⟩ => ⟨S1100000, .i1⟩
  | .hbm, ⟨70, _⟩ => ⟨S_, .i32⟩
  | .hbm, ⟨71, _⟩ => ⟨S1100000, .i32⟩
  | .hbm, ⟨72, _⟩ => ⟨S1100000, .i32⟩
  | .hbm, ⟨73, _⟩ => ⟨S1100000, .i32⟩
  | .hbm, ⟨74, _⟩ => ⟨S1100000x1, .i32⟩
  | .hbm, ⟨75, _⟩ => ⟨S1100000x64, .bf16⟩
  | .hbm, ⟨76, _⟩ => ⟨S1100000x64, .f32⟩
  | .hbm, ⟨77, _⟩ => ⟨S1100000x64, .f32⟩
  | .hbm, ⟨78, _⟩ => ⟨S1100000x64, .f32⟩
  | .hbm, ⟨79, _⟩ => ⟨S_, .f32⟩
  | .hbm, ⟨80, _⟩ => ⟨S100000x64, .f32⟩
  | .hbm, ⟨81, _⟩ => ⟨S1100000x1, .i32⟩
  | .hbm, ⟨82, _⟩ => ⟨S100000x64, .f32⟩
  | .hbm, ⟨83, _⟩ => ⟨S64x64, .f32⟩
  | .hbm, ⟨84, _⟩ => ⟨S64x64, .f32⟩
  | .hbm, ⟨85, _⟩ => ⟨S64x128, .f32⟩
  | .hbm, ⟨86, _⟩ => ⟨S1x64, .f32⟩
  | .hbm, ⟨87, _⟩ => ⟨S100000x128, .bf16⟩
  | .hbm, ⟨88, _⟩ => ⟨S100000x64, .bf16⟩
  | .hbm, ⟨89, _⟩ => ⟨S100000x64, .bf16⟩
  | .hbm, ⟨90, _⟩ => ⟨S1x1000000, .i32⟩
  | .hbm, ⟨91, _⟩ => ⟨S1000000, .i32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x64, .bf16⟩
  | .hbm, ⟨101, _⟩ => ⟨S1x1000000, .i32⟩
  | .hbm, ⟨102, _⟩ => ⟨S1000000, .i32⟩
  | .hbm, ⟨103, _⟩ => ⟨S_, .i32⟩
  | .hbm, ⟨104, _⟩ => ⟨S1000000, .i32⟩
  | .hbm, ⟨105, _⟩ => ⟨S1000000, .i1⟩
  | .hbm, ⟨106, _⟩ => ⟨S_, .i32⟩
  | .hbm, ⟨107, _⟩ => ⟨S1000000, .i32⟩
  | .hbm, ⟨108, _⟩ => ⟨S1000000, .i32⟩
  | .hbm, ⟨109, _⟩ => ⟨S1000000, .i32⟩
  | .hbm, ⟨110, _⟩ => ⟨S1000000x1, .i32⟩
  | .hbm, ⟨111, _⟩ => ⟨S1000000x64, .bf16⟩
  | .hbm, ⟨112, _⟩ => ⟨S1x64, .f32⟩
  | .hbm, ⟨113, _⟩ => ⟨S1x64, .f32⟩
  | .hbm, ⟨114, _⟩ => ⟨S1x1, .f32⟩
  | .hbm, ⟨115, _⟩ => ⟨S1000000x1, .f32⟩
  | .hbm, ⟨116, _⟩ => ⟨S1000000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x128, .f32⟩
  | .local _ .vmem, ⟨15, _⟩ => ⟨S5000x128, .bf16⟩
  | .local _ .vmem, ⟨16, _⟩ => ⟨S5000x128, .bf16⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S1x64, .f32⟩
  | .local _ .vmem, ⟨22, _⟩ => ⟨S1x64, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_13 : Ref sig .tc := ⟨.hbm, 103, rfl⟩
abbrev main_v78 : Ref sig .tc := ⟨.hbm, 104, rfl⟩
abbrev main_v79 : Ref sig .tc := ⟨.hbm, 105, rfl⟩
abbrev main_c_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  concatenates_S64x64_S64x64_S64x128_d1 : Shape.Concatenates [S64x64, S64x64] S64x128 1
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S100000x128_S100000x64_0_0 : S100000x128.Slices ![0, 0] S100000x64
  slices_S100000x128_S100000x64_0_64 : S100000x128.Slices ![0, 64] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64x1_S1x64 : S64x1.ShapeCasts S1x64
  shapeCasts_S1_S1x1 : S1.ShapeCasts S1x1
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S1000000x1_S1000000 : S1000000x1.ShapeCasts S1000000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x256_S256x128_S5000x128_1_0_0_1_n_n_wf : DotDims.WF S5000x256 S256x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x128_S5000x128_1_0_0_1_n_n_wf : DotDims.WF S5000x64 S64x128 S5000x128 [1] [0] [0] [1] [] []
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S1000000x64.size a
  hwx3_0 : ∀ i : grid3.Coords, EltTy.bits .bf16 = 32 ∨ (Rect.block (s := S1000000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S1000000x64.size a
  hwx3_1 : ∀ i : grid3.Coords, EltTy.bits .bf16 = 32 ∨ (Rect.block (s := S1000000x64) S5000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S1000000x1.size a
  hwx3_5 : ∀ i : grid3.Coords, EltTy.bits .f32 = 32 ∨ (Rect.block (s := S1000000x1) S5000x1.size (cc3_transform_5 i) (hinb3_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩
abbrev S1000000x1 : Shape := ⟨2, ![1000000, 1]⟩
abbrev S1000000x64 : Shape := ⟨2, ![1000000, 64]⟩
abbrev S1000000x128 : Shape := ⟨2, ![1000000, 128]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1000000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S1100000, .f32⟩
  | .hbm, ⟨46, _⟩ => ⟨S100000x128, .f32⟩
  | .hbm, ⟨47, _⟩ => ⟨S1100000x1, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x128, .f32⟩
  | .hbm, ⟨58, _⟩ => ⟨S1100000x128, .f32⟩
  | .hbm, ⟨59, _⟩ => ⟨S_, .f32⟩
  | .hbm, ⟨60, _⟩ => ⟨S100000x128, .f32⟩
  | .hbm, ⟨61, _⟩ => ⟨S1100000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S1100000x1, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x64, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S1x1000000, .i32⟩
  | .hbm, ⟨90, _⟩ => ⟨S1000000, .i32⟩
  | .hbm, ⟨91, _⟩ => ⟨S_, .i32⟩
  | .hbm, ⟨92, _⟩ => ⟨S1000000, .i32⟩
  | .hbm, ⟨93, _⟩ => ⟨S1000000, .i1⟩
  | .hbm, ⟨94, _⟩ => ⟨S_, .i32⟩
  | .hbm, ⟨95, _⟩ => ⟨S1000000, .i32⟩
  | .hbm, ⟨96, _⟩ => ⟨S1000000, .i32⟩
  | .hbm, ⟨97, _⟩ => ⟨S1000000, .i32⟩
  | .hbm, ⟨98, _⟩ => ⟨S1000000x1, .i32⟩
  | .hbm, ⟨99, _⟩ => ⟨S1000000x64, .f32⟩
  | .hbm, ⟨100, _⟩ => ⟨S1x1000000, .i32⟩
  | .hbm, ⟨101, _⟩ => ⟨S1000000, .i32⟩
  | .hbm, ⟨102, _⟩ => ⟨S_, .i32⟩
  | .hbm, ⟨103, _⟩ => ⟨S1000000, .i32⟩
  | .hbm, ⟨104, _⟩ => ⟨S1000000, .i1⟩
  | .hbm, ⟨105, _⟩ => ⟨S_, .i32⟩
  | .hbm, ⟨106, _⟩ => ⟨S1000000, .i32⟩
  | .hbm, ⟨107, _⟩ => ⟨S1000000, .i32⟩
  | .hbm, ⟨108, _⟩ => ⟨S1000000, .i32⟩
  | .hbm, ⟨109, _⟩ => ⟨S1000000x1, .i32⟩
  | .hbm, ⟨110, _⟩ => ⟨S1000000x64, .f32⟩
  | .hbm, ⟨111, _⟩ => ⟨S1000000x128, .f32⟩
  | .hbm, ⟨112, _⟩ => ⟨S1000000x64, .f32⟩
  | .hbm, ⟨113, _⟩ => ⟨S1x64, .f32⟩
  | .hbm, ⟨114, _⟩ => ⟨S1000000x64, .f32⟩
  | .hbm, ⟨115, _⟩ => ⟨S1000000x64, .f32⟩
  | .hbm, ⟨116, _⟩ => ⟨S_, .f32⟩
  | .hbm, ⟨117, _⟩ => ⟨S1000000x64, .f32⟩
  | .hbm, ⟨118, _⟩ => ⟨S1000000x64, .f32⟩
  | .hbm, ⟨119, _⟩ => ⟨S1000000x1, .f32⟩
  | .hbm, ⟨120, _⟩ => ⟨S1x1, .f32⟩
  | .hbm, ⟨121, _⟩ => ⟨S1000000x1, .f32⟩
  | .hbm, ⟨122, _⟩ => ⟨S1000000x1, .f32⟩
  | .hbm, ⟨123, _⟩ => ⟨S1000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x256_S256x128_S100000x128_1_0_0_1_n_n_wf : DotDims.WF S100000x256 S256x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KernelRun.lean ====
/-
  The kernel's run with every buffer named.

  The program is four pipelined regions among five stretches of host operations. Run one segment after another from the
  launch memory, every weakly fair execution terminates without a fault, and each unscoped buffer of a core ends at the
  contents that the chain of boundaries assigns it: a host stretch applies its operations to the contents before it; a
  region leaves each of its arrays at what its grid points wrote back and every other buffer as it found it. The result
  buffer and the ten arguments are read off that final valuation; the arguments are never written.
-/
import proofs.«127890_j10685878632451_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every core ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run with the result buffer and the ten arguments read off the final valuation. -/
theorem run_result : θ_run defs (onTc (τ := τ) (main (F := F))) ⟨m, fun _ => 0, ρ⟩ (fun r => ∀ c : Dev nD,
      r.2.mem ((c.tc : Thread nD τ).loc main_v89) = W9 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v89 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)
    (run_all m ρ)

end Cert.KernelIdeal.Whole

end
-- ==== Proof.KernelKept.lean ====
/-
  Buffers that a stretch of the kernel's program does not write.

  Along the chain of boundaries an argument array is never written: a host stretch writes only its operations' result
  buffers, and a region writes only its output array. So at every boundary an argument still holds its launch contents.
  The same holds, from the first boundary on, for the three buffers the first stretch computes and later stretches only
  read: the edge normalisation and the two index vectors with the self-loops appended.
-/
import proofs.«127890_j10685878632451_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.SL.Sem

/-- A reference that no operation of a stretch writes keeps its contents through the stretch. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) from by host_keeps hostOps0).trans rfl

theorem W1_main_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) from by host_keeps hostOps0).trans rfl

theorem W1_main_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) from by host_keeps hostOps0).trans rfl
theorem W2_main_arg3 (c : Dev nD) : W2 m ρ c (Proc.devRef .tc main_arg3) = m ((c : Thread nD τ).loc main_arg3) :=
  (W2_of_ne m ρ c main_arg3 (by decide)).trans (W1_main_arg3 m ρ c)

theorem W1_main_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) from by host_keeps hostOps0).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) from by host_keeps hostOps1).trans (W2_main_arg4 m ρ c)

theorem W1_main_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) from by host_keeps hostOps0).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) from by host_keeps hostOps1).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

theorem W1_main_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) from by host_keeps hostOps0).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (show StableHlo.after hostOps1 (W2 m ρ c) (Proc.devRef .tc main_arg6) = W2 m ρ c (Proc.devRef .tc main_arg6) from by host_keeps hostOps1).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)

theorem W1_main_arg1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) from by host_keeps hostOps0).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (show StableHlo.after hostOps1 (W2 m ρ c) (Proc.devRef .tc main_arg1) = W2 m ρ c (Proc.devRef .tc main_arg1) from by host_keeps hostOps1).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (show StableHlo.after hostOps2 (W4 m ρ c) (Proc.devRef .tc main_arg1) = W4 m ρ c (Proc.devRef .tc main_arg1) from by host_keeps hostOps2).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)

theorem W1_main_arg7 (c : Dev nD) : W1 m ρ c (Proc.devRef .tc main_arg7) = m ((c : Thread nD τ).loc main_arg7) :=
  (show StableHlo.after hostOps0 (W0 m ρ c) (Proc.devRef .tc main_arg7) = W0 m ρ c (Proc.devRef .tc main_arg7) from by host_keeps hostOps0).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) from by host_keeps hostOps1).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (show StableHlo.after hostOps2 (W4 m ρ c) (Proc.devRef .tc main_arg7) = W4 m ρ c (Proc.devRef .tc main_arg7) from by host_keeps hostOps2).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)

theorem W1_main_arg8 (c : Dev nD) : W1 m ρ c (Proc.devRef .tc main_arg8) = m ((c : Thread nD τ).loc main_arg8) :=
  (show StableHlo.after hostOps0 (W0 m ρ c) (Proc.devRef .tc main_arg8) = W0 m ρ c (Proc.devRef .tc main_arg8) from by host_keeps hostOps0).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) from by host_keeps hostOps1).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) from by host_keeps hostOps2).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

theorem W1_main_arg9 (c : Dev nD) : W1 m ρ c (Proc.devRef .tc main_arg9) = m ((c : Thread nD τ).loc main_arg9) :=
  (show StableHlo.after hostOps0 (W0 m ρ c) (Proc.devRef .tc main_arg9) = W0 m ρ c (Proc.devRef .tc main_arg9) from by host_keeps hostOps0).trans rfl
theorem W2_main_arg9 (c : Dev nD) : W2 m ρ c (Proc.devRef .tc main_arg9) = m ((c : Thread nD τ).loc main_arg9) :=
  (W2_of_ne m ρ c main_arg9 (by decide)).trans (W1_main_arg9 m ρ c)
theorem W3_main_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) from by host_keeps hostOps1).trans (W2_main_arg9 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W5_main_arg9 (c : Dev nD) : W5 m ρ c (Proc.devRef .tc main_arg9) = m ((c : Thread nD τ).loc main_arg9) :=
  (show StableHlo.after hostOps2 (W4 m ρ c) (Proc.devRef .tc main_arg9) = W4 m ρ c (Proc.devRef .tc main_arg9) from by host_keeps hostOps2).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W2_main_v28 (c : Dev nD) : W2 m ρ c (Proc.devRef .tc main_v28) = W1 m ρ c (Proc.devRef .tc main_v28) :=
  W2_of_ne m ρ c main_v28 (by decide)
theorem W3_main_v28 (c : Dev nD) : W3 m ρ c (Proc.devRef .tc main_v28) = W1 m ρ c (Proc.devRef .tc main_v28) :=
  (show StableHlo.after hostOps1 (W2 m ρ c) (Proc.devRef .tc main_v28) = W2 m ρ c (Proc.devRef .tc main_v28) from by host_keeps hostOps1).trans (W2_main_v28 m ρ c)
theorem W4_main_v28 (c : Dev nD) : W4 m ρ c (Proc.devRef .tc main_v28) = W1 m ρ c (Proc.devRef .tc main_v28) :=
  (W4_of_ne m ρ c main_v28 (by decide)).trans (W3_main_v28 m ρ c)
theorem W2_main_v5 (c : Dev nD) : W2 m ρ c (Proc.devRef .tc main_v5) = W1 m ρ c (Proc.devRef .tc main_v5) :=
  W2_of_ne m ρ c main_v5 (by decide)
theorem W3_main_v5 (c : Dev nD) : W3 m ρ c (Proc.devRef .tc main_v5) = W1 m ρ c (Proc.devRef .tc main_v5) :=
  (show StableHlo.after hostOps1 (W2 m ρ c) (Proc.devRef .tc main_v5) = W2 m ρ c (Proc.devRef .tc main_v5) from by host_keeps hostOps1).trans (W2_main_v5 m ρ c)
theorem W4_main_v5 (c : Dev nD) : W4 m ρ c (Proc.devRef .tc main_v5) = W1 m ρ c (Proc.devRef .tc main_v5) :=
  (W4_of_ne m ρ c main_v5 (by decide)).trans (W3_main_v5 m ρ c)
theorem W2_main_v6 (c : Dev nD) : W2 m ρ c (Proc.devRef .tc main_v6) = W1 m ρ c (Proc.devRef .tc main_v6) :=
  W2_of_ne m ρ c main_v6 (by decide)
theorem W3_main_v6 (c : Dev nD) : W3 m ρ c (Proc.devRef .tc main_v6) = W1 m ρ c (Proc.devRef .tc main_v6) :=
  (show StableHlo.after hostOps1 (W2 m ρ c) (Proc.devRef .tc main_v6) = W2 m ρ c (Proc.devRef .tc main_v6) from by host_keeps hostOps1).trans (W2_main_v6 m ρ c)
theorem W4_main_v6 (c : Dev nD) : W4 m ρ c (Proc.devRef .tc main_v6) = W1 m ρ c (Proc.devRef .tc main_v6) :=
  (W4_of_ne m ρ c main_v6 (by decide)).trans (W3_main_v6 m ρ c)

end Cert.KernelIdeal.Whole

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibNodeRows.lean ====
/-
  The dense pieces of a graph-convolution layer, as functions of whole arrays over the extended reals.

  Four maps of an `[M, ·]` array of node rows, each acting on every row alone:

    * `project x w r`     — `x · w` with the row `r : [1, N]` added to every row of the product;
    * `lin x w`           — the matrix product `x · w`: at `(p, q)` the sum over `k` of `x (p, k) * w (k, q)`;
    * `addRow x r`        — the row `r` added to every row of `x`;
    * `addRowRelu x r`    — the same followed by the maximum with zero.

  Row `p` of each result depends on row `p` of `x` only. Hence a computation that cuts `x` into blocks of consecutive
  rows and applies the map block by block produces exactly the blocks of the map applied to all of `x`: no sum is
  reordered, and nothing here needs an entry to be finite.

  The second half states the host's spellings of the same maps (a `dot_general` with the plain dimension numbers, a
  row spread over the rows by `broadcast_in_dim`, `add`, `maximum` against a spread zero) as these functions.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«127890_j10685878632451_2_alg».proof.Proof.LibPlainDot
import proofs.«127890_j10685878632451_2_alg».proof.Proof.LibRegionBlockSpread

noncomputable section

namespace Idealize.ShloMosaic.NodeRows

open Idealize.ShloMosaic Idealize.ShloMosaic.ValueIdx

/-- The float word zero, read at the ideal instance. It is the same word wherever it occurs and is never evaluated. -/
abbrev zeroWord : EReal := Ideal.ofBits .f32 0x00000000#32

variable {M K N : ℕ}

/-- `x · w + r`, the row `r` added to every row of the product. -/
def project (x : FVec Ideal ⟨2, ![M, K]⟩ .f32) (w : FVec Ideal ⟨2, ![K, N]⟩ .f32) (r : FVec Ideal ⟨2, ![1, N]⟩ .f32) :
    FVec Ideal ⟨2, ![M, N]⟩ .f32 :=
  fun i => ∑ k : Fin K, x (ix2 (i 0) k) * w (ix2 k (i 1)) + r (ix2 (0 : Fin 1) (i 1))

/-- The matrix product `x · w`. -/
def lin (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The row `r` added to every row of `x`. -/
def addRow (x : FVec Ideal ⟨2, ![M, N]⟩ .f32) (r : FVec Ideal ⟨2, ![1, N]⟩ .f32) : FVec Ideal ⟨2, ![M, N]⟩ .f32 :=
  fun i => x i + r (ix2 (0 : Fin 1) (i 1))

/-- The row `r` added to every row of `x`, then the maximum with zero. -/
def addRowRelu (x : FVec Ideal ⟨2, ![M, N]⟩ .f32) (r : FVec Ideal ⟨2, ![1, N]⟩ .f32) : FVec Ideal ⟨2, ![M, N]⟩ .f32 :=
  fun i => max (x i + r (ix2 (0 : Fin 1) (i 1))) zeroWord

/-! ## A block of consecutive rows -/

/-- Rows `e p` of `x` (any choice `e` of rows), with all of `w` and `r`, give rows `e p` of `project x w r`. -/
theorem project_rows {T : ℕ} (x : FVec Ideal ⟨2, ![M, K]⟩ .f32) (w : FVec Ideal ⟨2, ![K, N]⟩ .f32) (r : FVec Ideal ⟨2, ![1, N]⟩ .f32)
    (x0 : FVec Ideal ⟨2, ![T, K]⟩ .f32) (x1 : FVec Ideal ⟨2, ![K, N]⟩ .f32) (x2 : FVec Ideal ⟨2, ![1, N]⟩ .f32) (e : Fin T → Fin M)
    (h0 : ∀ p k, x0 (ix2 p k) = x (ix2 (e p) k)) (h1 : ∀ k q, x1 (ix2 k q) = w (ix2 k q))
    (h2 : ∀ q, x2 (ix2 (0 : Fin 1) q) = r (ix2 (0 : Fin 1) q)) (p : Fin T) (q : Fin N) :
    ∑ k : Fin K, x0 (ix2 p k) * x1 (ix2 k q) + x2 (ix2 (0 : Fin 1) q) = project x w r (ix2 (e p) q) := by
  show _ = ∑ k : Fin K, x (ix2 (e p) k) * w (ix2 k q) + r (ix2 (0 : Fin 1) q)
  rw [h2 q]
  exact congrArg (· + r (ix2 (0 : Fin 1) q)) (Finset.sum_congr rfl fun k _ => by rw [h0 p k, h1 k q])

/-- Rows `e p` of `x`, with all of `w`, give rows `e p` of `lin x w`. -/
theorem lin_rows {T : ℕ} (x : FVec Ideal ⟨2, ![M, K]⟩ .f32) (w : FVec Ideal ⟨2, ![K, N]⟩ .f32)
    (x0 : FVec Ideal ⟨2, ![T, K]⟩ .f32) (x1 : FVec Ideal ⟨2, ![K, N]⟩ .f32) (e : Fin T → Fin M)
    (h0 : ∀ p k, x0 (ix2 p k) = x (ix2 (e p) k)) (h1 : ∀ k q, x1 (ix2 k q) = w (ix2 k q)) (p : Fin T) (q : Fin N) :
    ∑ k : Fin K, x0 (ix2 p k) * x1 (ix2 k q) = lin x w (ix2 (e p) q) := by
  show _ = ∑ k : Fin K, x (ix2 (e p) k) * w (ix2 k q)
  exact Finset.sum_congr rfl fun k _ => by rw [h0 p k, h1 k q]

/-- Rows `e p` of `x`, with the row `r`, give rows `e p` of `addRow x r`. -/
theorem addRow_rows {T : ℕ} (x : FVec Ideal ⟨2, ![M, N]⟩ .f32) (r : FVec Ideal ⟨2, ![1, N]⟩ .f32)
    (x0 : FVec Ideal ⟨2, ![T, N]⟩ .f32) (x1 : FVec Ideal ⟨2, ![1, N]⟩ .f32) (e : Fin T → Fin M)
    (h0 : ∀ p q, x0 (ix2 p q) = x (ix2 (e p) q)) (h1 : ∀ q, x1 (ix2 (0 : Fin 1) q) = r (ix2 (0 : Fin 1) q)) (p : Fin T) (q : Fin N) :
    x0 (ix2 p q) + x1 (ix2 (0 : Fin 1) q) = addRow x r (ix2 (e p) q) := by
  show _ = x (ix2 (e p) q) + r (ix2 (0 : Fin 1) q)
  rw [h0 p q, h1 q]

/-- Rows `e p` of `x`, with the row `r`, give rows `e p` of `addRowRelu x r`. -/
theorem addRowRelu_rows {T : ℕ} (x : FVec Ideal ⟨2, ![M, N]⟩ .f32) (r : FVec Ideal ⟨2, ![1, N]⟩ .f32)
    (x0 : FVec Ideal ⟨2, ![T, N]⟩ .f32) (x1 : FVec Ideal ⟨2, ![1, N]⟩ .f32) (e : Fin T → Fin M)
    (h0 : ∀ p q, x0 (ix2 p q) = x (ix2 (e p) q)) (h1 : ∀ q, x1 (ix2 (0 : Fin 1) q) = r (ix2 (0 : Fin 1) q)) (p : Fin T) (q : Fin N) :
    max (x0 (ix2 p q) + x1 (ix2 (0 : Fin 1) q)) zeroWord = addRowRelu x r (ix2 (e p) q) := by
  show _ = max (x (ix2 (e p) q) + r (ix2 (0 : Fin 1) q)) zeroWord
  rw [h0 p q, h1 q]

/-! ## The host's spellings -/

/-- A host `dot_general` with the plain dimension numbers is `lin`. -/
theorem dotGeneral_eq_lin (d : DotDims ⟨2, ![M, K]⟩ ⟨2, ![K, N]⟩ ⟨2, ![M, N]⟩) (hd : d = DotDims.plain M K N)
    (prec : Option ContractPrecision) (sched : HostSchedule)
    (x : FVec Ideal ⟨2, ![M, K]⟩ .f32) (w : FVec Ideal ⟨2, ![K, N]⟩ .f32) :
    FloatOps.dotGeneral d prec sched x w = lin x w := by
  funext j
  obtain ⟨p, q, rfl⟩ : ∃ (p : Fin M) (q : Fin N), j = ix2 p q := ⟨j 0, j 1, eq_ix2 j⟩
  exact PlainDot.dotGeneral_apply d hd prec sched x w p q

/-- The host's `x + (r spread over the rows)` is `addRow`. -/
theorem addf_spread_eq_addRow (x : FVec Ideal ⟨2, ![M, N]⟩ .f32) (r : FVec Ideal ⟨2, ![1, N]⟩ .f32)
    (h : (⟨2, ![1, N]⟩ : Shape).BroadcastsInDim ⟨2, ![M, N]⟩ ![0, 1]) :
    addf x (broadcastInDim ⟨2, ![M, N]⟩ ![0, 1] h r) = addRow x r := by
  funext j
  obtain ⟨p, q, rfl⟩ : ∃ (p : Fin M) (q : Fin N), j = ix2 p q := ⟨j 0, j 1, eq_ix2 j⟩
  show x (ix2 p q) + broadcastInDim ⟨2, ![M, N]⟩ ![0, 1] h r (ix2 p q) = x (ix2 p q) + r (ix2 (0 : Fin 1) q)
  rw [KeepDims.broadcastInDim_1b_ab_apply]

/-- The host's `x · w + (r spread over the rows)` is `project`. -/
theorem dotGeneral_addf_spread_eq_project (d : DotDims ⟨2, ![M, K]⟩ ⟨2, ![K, N]⟩ ⟨2, ![M, N]⟩) (hd : d = DotDims.plain M K N)
    (prec : Option ContractPrecision) (sched : HostSchedule)
    (x : FVec Ideal ⟨2, ![M, K]⟩ .f32) (w : FVec Ideal ⟨2, ![K, N]⟩ .f32) (r : FVec Ideal ⟨2, ![1, N]⟩ .f32)
    (h : (⟨2, ![1, N]⟩ : Shape).BroadcastsInDim ⟨2, ![M, N]⟩ ![0, 1]) :
    addf (FloatOps.dotGeneral d prec sched x w) (broadcastInDim ⟨2, ![M, N]⟩ ![0, 1] h r) = project x w r := by
  rw [addf_spread_eq_addRow, dotGeneral_eq_lin d hd]
  rfl

/-- The host's rectifier after a bias: `max (x + (r spread over the rows)) (zero spread everywhere)` is `addRowRelu`. -/
theorem maximumf_addf_spread_eq_addRowRelu (x : FVec Ideal ⟨2, ![M, N]⟩ .f32) (r : FVec Ideal ⟨2, ![1, N]⟩ .f32)
    (h : (⟨2, ![1, N]⟩ : Shape).BroadcastsInDim ⟨2, ![M, N]⟩ ![0, 1])
    (h0 : (⟨0, ![]⟩ : Shape).BroadcastsInDim ⟨2, ![M, N]⟩ ![]) :
    maximumf (addf x (broadcastInDim ⟨2, ![M, N]⟩ ![0, 1] h r))
        (broadcastInDim ⟨2, ![M, N]⟩ ![] h0 (constant (F := Ideal) ⟨0, ![]⟩ .f32 0x00000000#32))
      = addRowRelu x r := by
  rw [addf_spread_eq_addRow]
  funext j
  show max (addRow x r j) (broadcastInDim ⟨2, ![M, N]⟩ ![] h0 (constant (F := Ideal) ⟨0, ![]⟩ .f32 0x00000000#32) j) = max (addRow x r j) zeroWord
  rw [broadcastInDim_apply ![] h0 _ j ix0 (fun a => a.elim0)]
  rfl

end Idealize.ShloMosaic.NodeRows

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRowLaws.lean ====
/-
  Row-wise laws of the kernel's four bodies, over the extended reals and for any sizes.

  Every body computes, for each row of its block alone, a function of that row and of small operands that are the same
  for all rows. So if a block's rows are rows `e p` of a whole array, what the body computes for the block is rows `e p` of
  the same function of the whole array: the sums over `k` are the same sums, term by term. Nothing here reorders a sum or
  needs an entry to be finite.

  `decode` is the last stage as a function of whole arrays: for edge `e`,
  `∑ k, max ((u (e, k) + v (e, k)) + b (0, k)) 0 * w (0, k) + c (0, 0)`.
-/
import proofs.«127890_j10685878632451_2_alg».proof.Proof.LibNodeRows

noncomputable section

namespace Idealize.ShloMosaic.RowLaws

open Idealize.ShloMosaic Idealize.ShloMosaic.ValueIdx Idealize.ShloMosaic.NodeRows

variable {M K N T : ℕ}

/-- Rows `e p` of `x`, with the row `r` and all of `w`, give rows `e p` of `relu (x + r) · w`. -/
theorem reluLin_rows (x : FVec Ideal ⟨2, ![M, K]⟩ .f32) (r : FVec Ideal ⟨2, ![1, K]⟩ .f32) (w : FVec Ideal ⟨2, ![K, N]⟩ .f32)
    (x0 : FVec Ideal ⟨2, ![T, K]⟩ .f32) (x1 : FVec Ideal ⟨2, ![1, K]⟩ .f32) (x2 : FVec Ideal ⟨2, ![K, N]⟩ .f32) (e : Fin T → Fin M)
    (h0 : ∀ p k, x0 (ix2 p k) = x (ix2 (e p) k)) (h1 : ∀ k, x1 (ix2 (0 : Fin 1) k) = r (ix2 (0 : Fin 1) k))
    (h2 : ∀ k q, x2 (ix2 k q) = w (ix2 k q)) (p : Fin T) (q : Fin N) :
    ∑ k : Fin K, max (x0 (ix2 p k) + x1 (ix2 (0 : Fin 1) k)) zeroWord * x2 (ix2 k q)
      = lin (addRowRelu x r) w (ix2 (e p) q) := by
  show _ = ∑ k : Fin K, max (x (ix2 (e p) k) + r (ix2 (0 : Fin 1) k)) zeroWord * w (ix2 k q)
  exact Finset.sum_congr rfl fun k _ => by rw [h0 p k, h1 k, h2 k q]

/-- Rows `e p` of `x`, with the row `r` and all of `w`, give rows `e p` of `(x + r) · w`. -/
theorem biasLin_rows (x : FVec Ideal ⟨2, ![M, K]⟩ .f32) (r : FVec Ideal ⟨2, ![1, K]⟩ .f32) (w : FVec Ideal ⟨2, ![K, N]⟩ .f32)
    (x0 : FVec Ideal ⟨2, ![T, K]⟩ .f32) (x1 : FVec Ideal ⟨2, ![1, K]⟩ .f32) (x2 : FVec Ideal ⟨2, ![K, N]⟩ .f32) (e : Fin T → Fin M)
    (h0 : ∀ p k, x0 (ix2 p k) = x (ix2 (e p) k)) (h1 : ∀ k, x1 (ix2 (0 : Fin 1) k) = r (ix2 (0 : Fin 1) k))
    (h2 : ∀ k q, x2 (ix2 k q) = w (ix2 k q)) (p : Fin T) (q : Fin N) :
    ∑ k : Fin K, (x0 (ix2 p k) + x1 (ix2 (0 : Fin 1) k)) * x2 (ix2 k q)
      = lin (addRow x r) w (ix2 (e p) q) := by
  show _ = ∑ k : Fin K, (x (ix2 (e p) k) + r (ix2 (0 : Fin 1) k)) * w (ix2 k q)
  exact Finset.sum_congr rfl fun k _ => by rw [h0 p k, h1 k, h2 k q]

/-- The decoder's last stage over whole arrays: per edge, the rectified sum of the two projections and the bias, weighted
    and summed over the hidden axis, plus the output bias. -/
def decode (u v : FVec Ideal ⟨2, ![M, K]⟩ .f32) (b w : FVec Ideal ⟨2, ![1, K]⟩ .f32) (c : FVec Ideal ⟨2, ![1, 1]⟩ .f32) :
    FVec Ideal ⟨2, ![M, 1]⟩ .f32 :=
  fun i => ∑ k : Fin K, max ((u (ix2 (i 0) k) + v (ix2 (i 0) k)) + b (ix2 (0 : Fin 1) k)) zeroWord * w (ix2 (0 : Fin 1) k)
    + c (ix2 (0 : Fin 1) (0 : Fin 1))

/-- `decode` at row `e`. -/
theorem decode_apply (u v : FVec Ideal ⟨2, ![M, K]⟩ .f32) (b w : FVec Ideal ⟨2, ![1, K]⟩ .f32) (c : FVec Ideal ⟨2, ![1, 1]⟩ .f32) (e : Fin M) :
    decode u v b w c (ix2 e (0 : Fin 1))
      = ∑ k : Fin K, max ((u (ix2 e k) + v (ix2 e k)) + b (ix2 (0 : Fin 1) k)) zeroWord * w (ix2 (0 : Fin 1) k)
        + c (ix2 (0 : Fin 1) (0 : Fin 1)) := rfl

/-- Rows `e p` of `u` and `v`, with the small operands, give rows `e p` of `decode`. -/
theorem decode_rows (u v : FVec Ideal ⟨2, ![M, K]⟩ .f32) (b w : FVec Ideal ⟨2, ![1, K]⟩ .f32) (c : FVec Ideal ⟨2, ![1, 1]⟩ .f32)
    (u0 v0 : FVec Ideal ⟨2, ![T, K]⟩ .f32) (b0 w0 : FVec Ideal ⟨2, ![1, K]⟩ .f32) (c0 : FVec Ideal ⟨2, ![1, 1]⟩ .f32) (e : Fin T → Fin M)
    (hu : ∀ p k, u0 (ix2 p k) = u (ix2 (e p) k)) (hv : ∀ p k, v0 (ix2 p k) = v (ix2 (e p) k))
    (hb : ∀ k, b0 (ix2 (0 : Fin 1) k) = b (ix2 (0 : Fin 1) k)) (hw : ∀ k, w0 (ix2 (0 : Fin 1) k) = w (ix2 (0 : Fin 1) k))
    (hc : c0 (ix2 (0 : Fin 1) (0 : Fin 1)) = c (ix2 (0 : Fin 1) (0 : Fin 1))) (p : Fin T) (z : Fin 1) :
    ∑ k : Fin K, max ((u0 (ix2 p k) + v0 (ix2 p k)) + b0 (ix2 (0 : Fin 1) k)) zeroWord * w0 (ix2 (0 : Fin 1) k)
        + c0 (ix2 (0 : Fin 1) (0 : Fin 1))
      = decode u v b w c (ix2 (e p) z) := by
  show _ = ∑ k : Fin K, max ((u (ix2 (e p) k) + v (ix2 (e p) k)) + b (ix2 (0 : Fin 1) k)) zeroWord * w (ix2 (0 : Fin 1) k)
    + c (ix2 (0 : Fin 1) (0 : Fin 1))
  rw [hc]
  exact congrArg (· + c (ix2 (0 : Fin 1) (0 : Fin 1))) (Finset.sum_congr rfl fun k _ => by rw [hu p k, hv p k, hb k, hw k])

end Idealize.ShloMosaic.RowLaws

end
-- ==== Proof.TileRows.lean ====
/-
  Blocks of 5000 consecutive rows.

  Each region of the kernel walks its long operand in blocks of 5000 rows: grid point `t` holds rows
  `5000 t, …, 5000 t + 4999`. `rowAt` names row `p` of block `t` as a row of the whole array; every row of the whole array
  is such a row, of block `r / 5000`.
-/
import Idealize.ShloMosaic.Lib.ValueIdx
import Mathlib.Tactic

noncomputable section

namespace Idealize.ShloMosaic.TileRows

/-- The zero offset of a rank-2 access. -/
theorem hz : (![0, 0] : Fin 2 → Nat) = fun _ => 0 := funext fun a => by fin_cases a <;> rfl

/-- Row `p` of block `t`, as a row of the array of `R = 5000 n` rows. -/
def rowAt {n : ℕ} (R : ℕ) (h : n * 5000 = R) (t : Fin n) (p : Fin 5000) : Fin R :=
  ⟨t.val * 5000 + p.val, by have := t.isLt; have := p.isLt; omega⟩

theorem rowAt_val {n : ℕ} (R : ℕ) (h : n * 5000 = R) (t : Fin n) (p : Fin 5000) :
    (rowAt R h t p).val = t.val * 5000 + p.val := rfl

end Idealize.ShloMosaic.TileRows

end
-- ==== Proof.KernelTile0.lean ====
/-
  Region 0: the first feature transform, block by block.

  Grid point `t` (of 20) loads rows `5000 t … 5000 t + 4999` of `x` and all of `W1`, and stores their product as rows
  `5000 t …` of the result. A row of a matrix product depends on the same row of the left factor only, so the blocks
  written back are the blocks of the whole product `x · W1`, and together they cover the result array: after the region
  it holds `x · W1`, entry `(p, q)` the sum over `k` of `x (p, k) * W1 (k, q)`.
-/
import proofs.«127890_j10685878632451_2_alg».proof.Proof.Gen.KernelIdeal.Frame
import proofs.«127890_j10685878632451_2_alg».proof.Proof.LibNodeRows
import proofs.«127890_j10685878632451_2_alg».proof.Proof.LibRowReduce
import proofs.«127890_j10685878632451_2_alg».proof.Proof.LibRowLaws
import proofs.«127890_j10685878632451_2_alg».proof.Proof.TileRows
import Idealize.ShloMosaic.Lib.Pipeline.Value
import Idealize.ShloMosaic.Lib.ValueLayout

set_option maxRecDepth 16384

noncomputable section

namespace Cert.KernelIdeal.Tile0

open Cert.KernelIdeal Cert.KernelIdeal.Gen
open Idealize.ShloMosaic Idealize.ShloMosaic.TcCoe Idealize.SL.Sem
open Idealize.ShloMosaic.ValueIdx Idealize.ShloMosaic.NodeRows Idealize.ShloMosaic.TileRows Idealize.ShloMosaic.RowLaws
open Idealize.ShloMosaic.Pipeline (Dat Cfg Window)

variable (V : (c : Dev nD) → (b : Ref sig .tc) → Buf (Elt Ideal) ((c : Thread nD τ).loc b))

/-- Twenty blocks of 5000 rows make the 100000 rows. -/
theorem rows : cfg0.N * 5000 = 100000 := by decide

/-- The block indices of the windows at point `t`: a long operand and the result move with `t` along the rows; a small
    operand is one block. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry: format changes are the identity on the extended reals. -/
theorem pay_apply (x0 : FVec Ideal S5000x256 .f32) (x1 : FVec Ideal S256x128 .f32) (p : Fin 5000) (q : Fin 128) :
    k0_pay1 (F := Ideal) x0 x1 (ix2 p q) = ∑ k : Fin 256, x0 (ix2 p k) * x1 (ix2 k q) :=
  PlainDot.matmul_zero_apply dot_S5000x256_S256x128_S5000x128_1_0_0_1_n_n rfl none x0 x1 p q

/-- Block `t` of the rows of `x`, read at `(p, k)`. -/
theorem blk_0 (c : Dev nD) (t : Fin cfg0.N) (p : Fin 5000) (k : Fin 256) :
    iblk0 V c 0 t (ix2 p k) = V c main_arg0 (ix2 (rowAt 100000 rows t p) k) := by
  show V c main_arg0 (((cfg0.win 0).blk t).view.emb (ix2 p k)) = _
  refine congrArg (V c main_arg0) ?_
  obtain ⟨e0, e1, e2, e3, e4, e5⟩ := idx t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega

/-- The one block of `W1`, read at `(k, q)`. -/
theorem blk_1 (c : Dev nD) (t : Fin cfg0.N) (k : Fin 256) (q : Fin 128) :
    iblk0 V c 1 t (ix2 k q) = V c main_arg2 (ix2 k q) := by
  show V c main_arg2 (((cfg0.win 1).blk t).view.emb (ix2 k q)) = _
  refine congrArg (V c main_arg2) ?_
  obtain ⟨e0, e1, e2, e3, e4, e5⟩ := idx t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- The result array's index of entry `(p, q)` of block `t`. -/
theorem emb_out (t : Fin cfg0.N) (p : Fin 5000) (q : Fin 128) :
    ((cfg0.win 2).blk t).view.emb (ix2 p q) = ix2 (rowAt 100000 rows t p) q := by
  obtain ⟨e0, e1, e2, e3, e4, e5⟩ := idx t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- What point `t` writes back is block `t` of the whole-array function. -/
theorem flushed_eq (c : Dev nD) (t : Fin cfg0.N) :
    (dat0 V c).flushed 2 t
      = ((cfg0.win 2).blk t).view.read (Elt Ideal) (lin (M := 100000) (K := 256) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = (lin (M := 100000) (K := 256) (N := 128) (V c main_arg0) (V c main_arg2)) (((cfg0.win 2).blk t).view.emb (ix2 p q))
  rw [emb_out t p q]
  refine (pay_apply _ _ p q).trans ?_
  exact lin_rows (V c main_arg0) (V c main_arg2) (iblk0 V c 0 t) (iblk0 V c 1 t) (rowAt 100000 rows t)
    (fun p k => blk_0 V c t p k) (fun k q => blk_1 V c t k q) p q

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every entry of the result array is in the block of the point that holds its row. -/
theorem cover (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by omega⟩, flush0_2 _, ?_⟩
  rw [mem_blk]
  obtain ⟨e0, e1, e2, e3, e4, e5⟩ := idx ⟨(i 0).val / 5000, by omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the region the result array holds `x · W1` of the arrays the region found. -/
theorem final (c : Dev nD) :
    (dat0 V c).arrAt 2 cfg0.N = lin (M := 100000) (K := 256) (N := 128) (V c main_arg0) (V c main_arg2) :=
  (dat0 V c).arrAt_eq_of_cover 2 _ (fun t _ => flushed_eq V c t) cover

end Cert.KernelIdeal.Tile0

end
-- ==== Proof.KernelTile1.lean ====
/-
  Region 1: the second feature transform, block by block.

  Grid point `t` (of 20) loads rows `5000 t … 5000 t + 4999` of the first layer's neighbour sums, the bias row `b1` and all
  of `W2`; it adds the bias to every row, takes the maximum with zero, and stores the product with `W2`. Each step acts on
  a row alone, so the stored blocks are the blocks of `relu(agg + b1) · W2` of the whole arrays, and they cover the
  result.
-/
import proofs.«127890_j10685878632451_2_alg».proof.Proof.Gen.KernelIdeal.Frame
import proofs.«127890_j10685878632451_2_alg».proof.Proof.LibNodeRows
import proofs.«127890_j10685878632451_2_alg».proof.Proof.LibRowReduce
import proofs.«127890_j10685878632451_2_alg».proof.Proof.LibRowLaws
import proofs.«127890_j10685878632451_2_alg».proof.Proof.TileRows
import Idealize.ShloMosaic.Lib.Pipeline.Value
import Idealize.ShloMosaic.Lib.ValueLayout

set_option maxRecDepth 16384

noncomputable section

namespace Cert.KernelIdeal.Tile1

open Cert.KernelIdeal Cert.KernelIdeal.Gen
open Idealize.ShloMosaic Idealize.ShloMosaic.TcCoe Idealize.SL.Sem
open Idealize.ShloMosaic.ValueIdx Idealize.ShloMosaic.NodeRows Idealize.ShloMosaic.TileRows Idealize.ShloMosaic.RowLaws
open Idealize.ShloMosaic.Pipeline (Dat Cfg Window)

variable (V : (c : Dev nD) → (b : Ref sig .tc) → Buf (Elt Ideal) ((c : Thread nD τ).loc b))

/-- Twenty blocks of 5000 rows make the 100000 rows. -/
theorem rows : cfg1.N * 5000 = 100000 := by decide

/-- The block indices of the windows at point `t`: a long operand and the result move with `t` along the rows; a small
    operand is one block. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body at an entry: bias, rectifier and the product, format changes being the identity on the extended reals. -/
theorem pay_apply (v0 : FVec Ideal S5000x128 .f32) (v2 : FVec Ideal S1x128 .f32) (v9 : FVec Ideal S128x64 .f32) (p : Fin 5000) (q : Fin 64) :
    k1_pay1 (F := Ideal) v0 v2 v9 (ix2 p q) = ∑ k : Fin 128, max (v0 (ix2 p k) + v2 (ix2 (0 : Fin 1) k)) zeroWord * v9 (ix2 k q) := by
  refine (PlainDot.matmul_zero_apply dot_S5000x128_S128x64_S5000x64_1_0_0_1_n_n rfl none _ _ p q).trans ?_
  refine Finset.sum_congr rfl fun k _ => ?_
  refine congrArg (· * v9 (ix2 k q)) ?_
  show max (shapeCast S5000x128 v0 shapeCasts_S5000x128_S5000x128 (ix2 p k)
      + broadcastTo S5000x128 (shapeCast S1x128 v2 shapeCasts_S1x128_S1x128) broadcasts_S1x128_S5000x128 (ix2 p k)) zeroWord = _
  rw [shapeCast_self, shapeCast_self, broadcastTo_1b_ab_apply]

/-- Block `t` of the rows of the neighbour sums, read at `(p, k)`. -/
theorem blk_0 (c : Dev nD) (t : Fin cfg1.N) (p : Fin 5000) (k : Fin 128) :
    iblk1 V c 0 t (ix2 p k) = V c main_v43 (ix2 (rowAt 100000 rows t p) k) := by
  show V c main_v43 (((cfg1.win 0).blk t).view.emb (ix2 p k)) = _
  refine congrArg (V c main_v43) ?_
  obtain ⟨e0, e1, e2, e3, e4, e5, e6, e7⟩ := idx t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The one block of the bias row, read at `(k, q)`. -/
theorem blk_1 (c : Dev nD) (t : Fin cfg1.N) (k : Fin 1) (q : Fin 128) :
    iblk1 V c 1 t (ix2 k q) = V c main_v44 (ix2 k q) := by
  show V c main_v44 (((cfg1.win 1).blk t).view.emb (ix2 k q)) = _
  refine congrArg (V c main_v44) ?_
  obtain ⟨e0, e1, e2, e3, e4, e5, e6, e7⟩ := idx t
  funext a; apply Fin.ext
  match a with
  | ⟨0, _⟩ => show win1_1.index t (0 : Fin 2) * 1 + 1 * k.val = k.val; omega
  | ⟨1, _⟩ => show win1_1.index t (1 : Fin 2) * 128 + 1 * q.val = q.val; omega

/-- The one block of `W2`, read at `(k, q)`. -/
theorem blk_2 (c : Dev nD) (t : Fin cfg1.N) (k : Fin 128) (q : Fin 64) :
    iblk1 V c 2 t (ix2 k q) = V c main_arg4 (ix2 k q) := by
  show V c main_arg4 (((cfg1.win 2).blk t).view.emb (ix2 k q)) = _
  refine congrArg (V c main_arg4) ?_
  obtain ⟨e0, e1, e2, e3, e4, e5, e6, e7⟩ := idx t
  funext a; apply Fin.ext
  match a with
  | ⟨0, _⟩ => show win1_2.index t (0 : Fin 2) * 128 + 1 * k.val = k.val; omega
  | ⟨1, _⟩ => show win1_2.index t (1 : Fin 2) * 64 + 1 * q.val = q.val; omega

/-- The result array's index of entry `(p, q)` of block `t`. -/
theorem emb_out (t : Fin cfg1.N) (p : Fin 5000) (q : Fin 64) :
    ((cfg1.win 3).blk t).view.emb (ix2 p q) = ix2 (rowAt 100000 rows t p) q := by
  obtain ⟨e0, e1, e2, e3, e4, e5, e6, e7⟩ := idx t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

/-- What point `t` writes back is block `t` of the whole-array function. -/
theorem flushed_eq (c : Dev nD) (t : Fin cfg1.N) :
    (dat1 V c).flushed 3 t
      = ((cfg1.win 3).blk t).view.read (Elt Ideal) (lin (M := 100000) (K := 128) (N := 64) (addRowRelu (M := 100000) (N := 128) (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = (lin (M := 100000) (K := 128) (N := 64) (addRowRelu (M := 100000) (N := 128) (V c main_v43) (V c main_v44)) (V c main_arg4)) (((cfg1.win 3).blk t).view.emb (ix2 p q))
  rw [emb_out t p q]
  refine (pay_apply _ _ _ p q).trans ?_
  exact reluLin_rows (V c main_v43) (V c main_v44) (V c main_arg4) (iblk1 V c 0 t) (iblk1 V c 1 t) (iblk1 V c 2 t) (rowAt 100000 rows t)
    (fun p k => blk_0 V c t p k) (fun k => blk_1 V c t 0 k) (fun k q => blk_2 V c t k q) p q

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every entry of the result array is in the block of the point that holds its row. -/
theorem cover (i : S100000x64.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  refine ⟨⟨(i 0).val / 5000, by omega⟩, flush1_3 _, ?_⟩
  rw [mem_blk]
  obtain ⟨e0, e1, e2, e3, e4, e5, e6, e7⟩ := idx ⟨(i 0).val / 5000, by omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- After the region the result array holds `relu(agg + b1) · W2` of the arrays the region found. -/
theorem final (c : Dev nD) :
    (dat1 V c).arrAt 3 cfg1.N = lin (M := 100000) (K := 128) (N := 64) (addRowRelu (M := 100000) (N := 128) (V c main_v43) (V c main_v44)) (V c main_arg4) :=
  (dat1 V c).arrAt_eq_of_cover 3 _ (fun t _ => flushed_eq V c t) cover

end Cert.KernelIdeal.Tile1

end
-- ==== Proof.KernelTile2.lean ====
/-
  Region 2: the two halves of the decoder's first layer, per node, block by block.

  Grid point `t` (of 20) loads rows `5000 t … 5000 t + 4999` of the second layer's neighbour sums, the bias row `b2` and
  the 64 × 128 matrix that holds the two halves of `Wp1` side by side; it adds the bias to every row and stores the
  product. Row by row again: the stored blocks are the blocks of `(agg + b2) · Wcat` of the whole arrays, and they cover
  the result.
-/
import proofs.«127890_j10685878632451_2_alg».proof.Proof.Gen.KernelIdeal.Frame
import proofs.«127890_j10685878632451_2_alg».proof.Proof.LibNodeRows
import proofs.«127890_j10685878632451_2_alg».proof.Proof.LibRowReduce
import proofs.«127890_j10685878632451_2_alg».proof.Proof.LibRowLaws
import proofs.«127890_j10685878632451_2_alg».proof.Proof.TileRows
import Idealize.ShloMosaic.Lib.Pipeline.Value
import Idealize.ShloMosaic.Lib.ValueLayout

set_option maxRecDepth 16384

noncomputable section

namespace Cert.KernelIdeal.Tile2

open Cert.KernelIdeal Cert.KernelIdeal.Gen
open Idealize.ShloMosaic Idealize.ShloMosaic.TcCoe Idealize.SL.Sem
open Idealize.ShloMosaic.ValueIdx Idealize.ShloMosaic.NodeRows Idealize.ShloMosaic.TileRows Idealize.ShloMosaic.RowLaws
open Idealize.ShloMosaic.Pipeline (Dat Cfg Window)

variable (V : (c : Dev nD) → (b : Ref sig .tc) → Buf (Elt Ideal) ((c : Thread nD τ).loc b))

/-- Twenty blocks of 5000 rows make the 100000 rows. -/
theorem rows : cfg2.N * 5000 = 100000 := by decide

/-- The block indices of the windows at point `t`: a long operand and the result move with `t` along the rows; a small
    operand is one block. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body at an entry: the bias and the product, format changes being the identity on the extended reals. -/
theorem pay_apply (v0 : FVec Ideal S5000x64 .f32) (v2 : FVec Ideal S1x64 .f32) (v7 : FVec Ideal S64x128 .f32) (p : Fin 5000) (q : Fin 128) :
    k2_pay1 (F := Ideal) v0 v2 v7 (ix2 p q) = ∑ k : Fin 64, (v0 (ix2 p k) + v2 (ix2 (0 : Fin 1) k)) * v7 (ix2 k q) := by
  refine (PlainDot.matmul_zero_apply dot_S5000x64_S64x128_S5000x128_1_0_0_1_n_n rfl none _ _ p q).trans ?_
  refine Finset.sum_congr rfl fun k _ => ?_
  show (shapeCast S5000x64 v0 shapeCasts_S5000x64_S5000x64 (ix2 p k)
      + broadcastTo S5000x64 (shapeCast S1x64 v2 shapeCasts_S1x64_S1x64) broadcasts_S1x64_S5000x64 (ix2 p k))
      * shapeCast S64x128 v7 shapeCasts_S64x128_S64x128 (ix2 k q) = _
  rw [shapeCast_self, shapeCast_self, shapeCast_self, broadcastTo_1b_ab_apply]

/-- Block `t` of the rows of the neighbour sums, read at `(p, k)`. -/
theorem blk_0 (c : Dev nD) (t : Fin cfg2.N) (p : Fin 5000) (k : Fin 64) :
    iblk2 V c 0 t (ix2 p k) = V c main_v59 (ix2 (rowAt 100000 rows t p) k) := by
  show V c main_v59 (((cfg2.win 0).blk t).view.emb (ix2 p k)) = _
  refine congrArg (V c main_v59) ?_
  obtain ⟨e0, e1, e2, e3, e4, e5, e6, e7⟩ := idx t
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- The one block of the bias row, read at `(k, q)`. -/
theorem blk_1 (c : Dev nD) (t : Fin cfg2.N) (k : Fin 1) (q : Fin 64) :
    iblk2 V c 1 t (ix2 k q) = V c main_v63 (ix2 k q) := by
  show V c main_v63 (((cfg2.win 1).blk t).view.emb (ix2 k q)) = _
  refine congrArg (V c main_v63) ?_
  obtain ⟨e0, e1, e2, e3, e4, e5, e6, e7⟩ := idx t
  funext a; apply Fin.ext
  match a with
  | ⟨0, _⟩ => show win2_1.index t (0 : Fin 2) * 1 + 1 * k.val = k.val; omega
  | ⟨1, _⟩ => show win2_1.index t (1 : Fin 2) * 64 + 1 * q.val = q.val; omega

/-- The one block of the side-by-side weight matrix, read at `(k, q)`. -/
theorem blk_2 (c : Dev nD) (t : Fin cfg2.N) (k : Fin 64) (q : Fin 128) :
    iblk2 V c 2 t (ix2 k q) = V c main_v62 (ix2 k q) := by
  show V c main_v62 (((cfg2.win 2).blk t).view.emb (ix2 k q)) = _
  refine congrArg (V c main_v62) ?_
  obtain ⟨e0, e1, e2, e3, e4, e5, e6, e7⟩ := idx t
  funext a; apply Fin.ext
  match a with
  | ⟨0, _⟩ => show win2_2.index t (0 : Fin 2) * 64 + 1 * k.val = k.val; omega
  | ⟨1, _⟩ => show win2_2.index t (1 : Fin 2) * 128 + 1 * q.val = q.val; omega

/-- The result array's index of entry `(p, q)` of block `t`. -/
theorem emb_out (t : Fin cfg2.N) (p : Fin 5000) (q : Fin 128) :
    ((cfg2.win 3).blk t).view.emb (ix2 p q) = ix2 (rowAt 100000 rows t p) q := by
  obtain ⟨e0, e1, e2, e3, e4, e5, e6, e7⟩ := idx t
  funext a; apply Fin.ext
  match a with
  | ⟨0, _⟩ => show win2_3.index t (0 : Fin 2) * 5000 + 1 * p.val = t.val * 5000 + p.val; omega
  | ⟨1, _⟩ => show win2_3.index t (1 : Fin 2) * 128 + 1 * q.val = q.val; omega

/-- What point `t` writes back is block `t` of the whole-array function. -/
theorem flushed_eq (c : Dev nD) (t : Fin cfg2.N) :
    (dat2 V c).flushed 3 t
      = ((cfg2.win 3).blk t).view.read (Elt Ideal) (lin (M := 100000) (K := 64) (N := 128) (addRow (M := 100000) (N := 64) (V c main_v59) (V c main_v63)) (V c main_v62)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x128) hz]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = (lin (M := 100000) (K := 64) (N := 128) (addRow (M := 100000) (N := 64) (V c main_v59) (V c main_v63)) (V c main_v62)) (((cfg2.win 3).blk t).view.emb (ix2 p q))
  rw [emb_out t p q]
  refine (pay_apply _ _ _ p q).trans ?_
  exact biasLin_rows (V c main_v59) (V c main_v63) (V c main_v62) (iblk2 V c 0 t) (iblk2 V c 1 t) (iblk2 V c 2 t) (rowAt 100000 rows t)
    (fun p k => blk_0 V c t p k) (fun k => blk_1 V c t 0 k) (fun k q => blk_2 V c t k q) p q

/-- An index of the result array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- Every entry of the result array is in the block of the point that holds its row. -/
theorem cover (i : S100000x128.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  refine ⟨⟨(i 0).val / 5000, by omega⟩, flush2_3 _, ?_⟩
  rw [mem_blk]
  obtain ⟨e0, e1, e2, e3, e4, e5, e6, e7⟩ := idx ⟨(i 0).val / 5000, by omega⟩
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e7]; omega

/-- After the region the result array holds `(agg + b2) · Wcat` of the arrays the region found. -/
theorem final (c : Dev nD) :
    (dat2 V c).arrAt 3 cfg2.N = lin (M := 100000) (K := 64) (N := 128) (addRow (M := 100000) (N := 64) (V c main_v59) (V c main_v63)) (V c main_v62) :=
  (dat2 V c).arrAt_eq_of_cover 3 _ (fun t _ => flushed_eq V c t) cover

end Cert.KernelIdeal.Tile2

end
-- ==== Proof.KernelTile3.lean ====
/-
  Region 3: the decoder's last stage, per edge, block by block.

  Grid point `t` (of 200) loads rows `5000 t … 5000 t + 4999` of the two gathered projections (one row per edge), the bias
  row `bp1`, the weight row `Wp2` and the output bias; per edge it adds the two projections and the bias, takes the
  maximum with zero, multiplies by the weight row, sums over the 64 hidden entries and adds the output bias. Edge by
  edge: the stored blocks are the blocks of `decode` of the whole arrays, and they cover the result column.
-/
import proofs.«127890_j10685878632451_2_alg».proof.Proof.Gen.KernelIdeal.Frame
import proofs.«127890_j10685878632451_2_alg».proof.Proof.LibNodeRows
import proofs.«127890_j10685878632451_2_alg».proof.Proof.LibRowReduce
import proofs.«127890_j10685878632451_2_alg».proof.Proof.LibRowLaws
import proofs.«127890_j10685878632451_2_alg».proof.Proof.TileRows
import Idealize.ShloMosaic.Lib.Pipeline.Value
import Idealize.ShloMosaic.Lib.ValueLayout

set_option maxRecDepth 16384

noncomputable section

namespace Cert.KernelIdeal.Tile3

open Cert.KernelIdeal Cert.KernelIdeal.Gen
open Idealize.ShloMosaic Idealize.ShloMosaic.TcCoe Idealize.SL.Sem
open Idealize.ShloMosaic.ValueIdx Idealize.ShloMosaic.NodeRows Idealize.ShloMosaic.TileRows Idealize.ShloMosaic.RowLaws
open Idealize.ShloMosaic.Pipeline (Dat Cfg Window)

variable (V : (c : Dev nD) → (b : Ref sig .tc) → Buf (Elt Ideal) ((c : Thread nD τ).loc b))

/-- Two hundred blocks of 5000 rows make the million edges. -/
theorem rows : cfg3.N * 5000 = 1000000 := by decide

/-- The block indices of the windows at point `t`: a long operand and the result move with `t` along the rows; a small
    operand is one block. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The body at an edge: the lane sum from the zero accumulator is the plain sum over the 64 hidden entries, the casts
    and format changes are the identity, the small operands are read at their one row. -/
theorem pay_apply (v0 v3 : FVec Ideal S5000x64 .bf16) (v7 v13 : FVec Ideal S1x64 .f32) (v19 : FVec Ideal S1x1 .f32) (p : Fin 5000) (z : Fin 1) :
    k3_pay1 (F := Ideal) v0 v3 v7 v13 v19 (ix2 p z)
      = ∑ k : Fin 64, max ((v0 (ix2 p k) + v3 (ix2 p k)) + v7 (ix2 (0 : Fin 1) k)) zeroWord * v13 (ix2 (0 : Fin 1) k)
        + v19 (ix2 (0 : Fin 1) (0 : Fin 1)) := by
  obtain rfl : z = 0 := Subsingleton.elim _ _
  unfold k3_pay1
  show shapeCast S5000x1 (multiReduction .add [1] S5000 _ 0x00000000#32 reduces_S5000x64_S5000 (.inl rfl) rfl) shapeCasts_S5000_S5000x1 (ix2 p (0 : Fin 1))
      + broadcastTo S5000x1 (shapeCast S1x1 v19 shapeCasts_S1x1_S1x1) broadcasts_S1x1_S5000x1 (ix2 p (0 : Fin 1)) = _
  rw [RowReduce.shapeCast_a_a1_apply, broadcastTo_1b_ab_apply, shapeCast_self v19]
  refine congrArg (· + v19 (ix2 (0 : Fin 1) (0 : Fin 1))) ?_
  refine (RowReduce.multiReduction_add_row _ 0x00000000#32 reduces_S5000x64_S5000 (.inl rfl) rfl p).trans ?_
  refine Finset.sum_congr rfl fun k _ => ?_
  show max ((shapeCast S5000x64 v0 shapeCasts_S5000x64_S5000x64 (ix2 p k) + shapeCast S5000x64 v3 shapeCasts_S5000x64_S5000x64 (ix2 p k))
      + broadcastTo S5000x64 (shapeCast S1x64 v7 shapeCasts_S1x64_S1x64) broadcasts_S1x64_S5000x64 (ix2 p k)) zeroWord
      * broadcastTo S5000x64 (shapeCast S1x64 v13 shapeCasts_S1x64_S1x64) broadcasts_S1x64_S5000x64 (ix2 p k) = _
  rw [shapeCast_self v0, shapeCast_self v3, shapeCast_self v7, shapeCast_self v13, broadcastTo_1b_ab_apply, broadcastTo_1b_ab_apply]

/-- Block `t` of the rows of the source projections, read at `(p, k)`. -/
theorem blk_0 (c : Dev nD) (t : Fin cfg3.N) (p : Fin 5000) (k : Fin 64) :
    iblk3 V c 0 t (ix2 p k) = V c main_v75 (ix2 (rowAt 1000000 rows t p) k) := by
  show V c main_v75 (((cfg3.win 0).blk t).view.emb (ix2 p k)) = _
  refine congrArg (V c main_v75) ?_
  obtain ⟨e0, e1, e2, e3, e4, e5, e6, e7, e8, e9, e10, e11⟩ := idx t
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- Block `t` of the rows of the target projections, read at `(p, k)`. -/
theorem blk_1 (c : Dev nD) (t : Fin cfg3.N) (p : Fin 5000) (k : Fin 64) :
    iblk3 V c 1 t (ix2 p k) = V c main_v84 (ix2 (rowAt 1000000 rows t p) k) := by
  show V c main_v84 (((cfg3.win 1).blk t).view.emb (ix2 p k)) = _
  refine congrArg (V c main_v84) ?_
  obtain ⟨e0, e1, e2, e3, e4, e5, e6, e7, e8, e9, e10, e11⟩ := idx t
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

/-- The one block of the bias row, read at `(k, q)`. -/
theorem blk_2 (c : Dev nD) (t : Fin cfg3.N) (k : Fin 1) (q : Fin 64) :
    iblk3 V c 2 t (ix2 k q) = V c main_v86 (ix2 k q) := by
  show V c main_v86 (((cfg3.win 2).blk t).view.emb (ix2 k q)) = _
  refine congrArg (V c main_v86) ?_
  obtain ⟨e0, e1, e2, e3, e4, e5, e6, e7, e8, e9, e10, e11⟩ := idx t
  funext a; apply Fin.ext
  match a with
  | ⟨0, _⟩ => show win3_2.index t (0 : Fin 2) * 1 + 1 * k.val = k.val; omega
  | ⟨1, _⟩ => show win3_2.index t (1 : Fin 2) * 64 + 1 * q.val = q.val; omega

/-- The one block of the weight row, read at `(k, q)`. -/
theorem blk_3 (c : Dev nD) (t : Fin cfg3.N) (k : Fin 1) (q : Fin 64) :
    iblk3 V c 3 t (ix2 k q) = V c main_v85 (ix2 k q) := by
  show V c main_v85 (((cfg3.win 3).blk t).view.emb (ix2 k q)) = _
  refine congrArg (V c main_v85) ?_
  obtain ⟨e0, e1, e2, e3, e4, e5, e6, e7, e8, e9, e10, e11⟩ := idx t
  funext a; apply Fin.ext
  match a with
  | ⟨0, _⟩ => show win3_3.index t (0 : Fin 2) * 1 + 1 * k.val = k.val; omega
  | ⟨1, _⟩ => show win3_3.index t (1 : Fin 2) * 64 + 1 * q.val = q.val; omega

/-- The one block of the output bias, read at `(k, q)`. -/
theorem blk_4 (c : Dev nD) (t : Fin cfg3.N) (k : Fin 1) (q : Fin 1) :
    iblk3 V c 4 t (ix2 k q) = V c main_v87 (ix2 k q) := by
  show V c main_v87 (((cfg3.win 4).blk t).view.emb (ix2 k q)) = _
  refine congrArg (V c main_v87) ?_
  obtain ⟨e0, e1, e2, e3, e4, e5, e6, e7, e8, e9, e10, e11⟩ := idx t
  funext a; apply Fin.ext
  match a with
  | ⟨0, _⟩ => show win3_4.index t (0 : Fin 2) * 1 + 1 * k.val = k.val; omega
  | ⟨1, _⟩ => show win3_4.index t (1 : Fin 2) * 1 + 1 * q.val = q.val; omega

/-- The result array's index of entry `(p, q)` of block `t`. -/
theorem emb_out (t : Fin cfg3.N) (p : Fin 5000) (q : Fin 1) :
    ((cfg3.win 5).blk t).view.emb (ix2 p q) = ix2 (rowAt 1000000 rows t p) q := by
  obtain ⟨e0, e1, e2, e3, e4, e5, e6, e7, e8, e9, e10, e11⟩ := idx t
  funext a; apply Fin.ext
  match a with
  | ⟨0, _⟩ => show win3_5.index t (0 : Fin 2) * 5000 + 1 * p.val = t.val * 5000 + p.val; omega
  | ⟨1, _⟩ => show win3_5.index t (1 : Fin 2) * 1 + 1 * q.val = q.val; omega

/-- What point `t` writes back is block `t` of the whole-array function. -/
theorem flushed_eq (c : Dev nD) (t : Fin cfg3.N) :
    (dat3 V c).flushed 5 t
      = ((cfg3.win 5).blk t).view.read (Elt Ideal) (decode (M := 1000000) (K := 64) (V c main_v75) (V c main_v84) (V c main_v86) (V c main_v85) (V c main_v87)) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz, View.ld_unit_zero (S := S1x1) hz]
  funext j
  obtain ⟨p, q, rfl⟩ : ∃ (p : Fin 5000) (q : Fin 1), j = ix2 p q := ⟨j 0, j 1, eq_ix2 j⟩
  show k3_pay1 (iblk3 V c 0 t) (iblk3 V c 1 t) (iblk3 V c 2 t) (iblk3 V c 3 t) (iblk3 V c 4 t) (ix2 p q)
    = (decode (M := 1000000) (K := 64) (V c main_v75) (V c main_v84) (V c main_v86) (V c main_v85) (V c main_v87)) (((cfg3.win 5).blk t).view.emb (ix2 p q))
  rw [emb_out t p q]
  refine (pay_apply _ _ _ _ _ p q).trans ?_
  exact decode_rows (V c main_v75) (V c main_v84) (V c main_v86) (V c main_v85) (V c main_v87)
    (iblk3 V c 0 t) (iblk3 V c 1 t) (iblk3 V c 2 t) (iblk3 V c 3 t) (iblk3 V c 4 t) (rowAt 1000000 rows t)
    (fun p k => blk_0 V c t p k) (fun p k => blk_1 V c t p k) (fun k => blk_2 V c t 0 k) (fun k => blk_3 V c t 0 k) (blk_4 V c t 0 0) p q

/-- An index of the result array is in point `t`'s block iff each coordinate is in the block's range on its axis. -/
theorem mem_blk (t : Fin cfg3.N) (i : S1000000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v88).slice (win3_5.rect t)).set ↔ _
  rw [View.set_slice_whole, Rect.mem_set_unit]
  exact Iff.rfl

/-- Every entry of the result array is in the block of the point that holds its row. -/
theorem cover (i : S1000000x1.Idx) :
    ∃ t : Fin cfg3.N, (cfg3.win 5).flush t = true ∧ i ∈ ((cfg3.win 5).blk t).view.set := by
  have hN : cfg3.N = 200 := N_3
  have hi0 : (i 0).val < 1000000 := (i 0).isLt
  have hi1 : (i 1).val < 1 := (i 1).isLt
  refine ⟨⟨(i 0).val / 5000, by omega⟩, flush3_5 _, ?_⟩
  rw [mem_blk]
  obtain ⟨e0, e1, e2, e3, e4, e5, e6, e7, e8, e9, e10, e11⟩ := idx ⟨(i 0).val / 5000, by omega⟩
  intro a
  match a with
  | ⟨0, _⟩ =>
    show win3_5.index _ (0 : Fin 2) * 5000 ≤ (i 0).val ∧ (i 0).val < win3_5.index _ (0 : Fin 2) * 5000 + 5000
    rw [e10]; show (i 0).val / 5000 * 5000 ≤ (i 0).val ∧ (i 0).val < (i 0).val / 5000 * 5000 + 5000; omega
  | ⟨1, _⟩ =>
    show win3_5.index _ (1 : Fin 2) * 1 ≤ (i 1).val ∧ (i 1).val < win3_5.index _ (1 : Fin 2) * 1 + 1
    rw [e11]; omega

/-- After the region the result column holds `decode` of the arrays the region found. -/
theorem final (c : Dev nD) :
    (dat3 V c).arrAt 5 cfg3.N = decode (M := 1000000) (K := 64) (V c main_v75) (V c main_v84) (V c main_v86) (V c main_v85) (V c main_v87) :=
  (dat3 V c).arrAt_eq_of_cover 5 _ (fun t _ => flushed_eq V c t) cover

end Cert.KernelIdeal.Tile3

end
-- ==== Proof.LibRowOfVector.lean ====
/-
  A vector laid out as one row, two ways.

  An array of shape `[n]` becomes an array of shape `[1, n]` either by a reshape or by a broadcast that sends its one axis
  to the second axis of the result. Both read, at `(u, j)`, the vector at `j` (the unit coordinate `u` is `0`), so they
  are the same array.
-/
import Idealize.ShloMosaic.Lib.Pipeline.Value
import Idealize.ShloMosaic.Lib.ValueIdx
import Idealize.ShloMosaic.Lib.ValueLayout

noncomputable section

namespace Idealize.ShloMosaic.RowOfVector

open Idealize.ShloMosaic Idealize.ShloMosaic.ValueIdx

/-- An `[n]` array reshaped to `[1, n]` is the same array broadcast along the second axis. -/
theorem shapeCast_eq_broadcastInDim {α : Type} (n : ℕ) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) h2 x := by
  funext i
  obtain ⟨u, j, rfl⟩ : ∃ (u : Fin 1) (j : Fin n), i = ix2 u j := ⟨i 0, i 1, eq_ix2 i⟩
  rw [shapeCast_a_1a_apply]
  refine (broadcastInDim_apply _ h2 x (ix2 u j) (ix1 j) (fun a => ?_)).symm
  match a with
  | ⟨0, _⟩ =>
    show j.val = if n = 1 then 0 else j.val
    split
    · have := j.isLt; omega
    · rfl

end Idealize.ShloMosaic.RowOfVector

end
-- ==== Proof.KernelStages.lean ====
/-
  The kernel's buffers at the boundaries of its program, as functions of the ten arguments.

  Read along the chain of boundaries: the first host stretch computes the two index vectors with the self-loops appended
  and the edge normalisation `norm`; region 0 leaves `x · W1`; the second stretch gathers its rows along the sources,
  scales them by `norm` and sums them into the targets; region 1 leaves `relu(agg1 + b1) · W2`; the third stretch does the
  same gather, scaling and sum; region 2 leaves `(agg2 + b2) · Wcat`; the fourth stretch cuts that into its two halves and
  gathers one along the sources and the other along the targets of the edges; region 3 leaves the decoder's last stage;
  the last stretch lays the column out flat.

  Each of these buffers is stated as the SAME term the reference program has for the corresponding value (the
  reference's stages, `val_…`), wherever the reference has one: the host operations of the two programs between the dense
  stages are the same operations on the same operands, and a change of float format is the identity on the extended
  reals. What differs — the last three stages — is left in the kernel's own form for the entry-by-entry comparison.
-/
import proofs.«127890_j10685878632451_2_alg».proof.Proof.KernelKept
import proofs.«127890_j10685878632451_2_alg».proof.Proof.KernelTile0
import proofs.«127890_j10685878632451_2_alg».proof.Proof.KernelTile1
import proofs.«127890_j10685878632451_2_alg».proof.Proof.KernelTile2
import proofs.«127890_j10685878632451_2_alg».proof.Proof.KernelTile3
import proofs.«127890_j10685878632451_2_alg».proof.Proof.Gen.ReferenceIdeal.Read
import proofs.«127890_j10685878632451_2_alg».proof.Proof.LibRowOfVector
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.ValueIdx Idealize.ShloMosaic.NodeRows Idealize.ShloMosaic.RowLaws
open Cert.ReferenceIdeal.Read

variable (m : (ℓ : Loc nD τ sig) → Buf (Elt Ideal) ℓ) (ρ : Dev nD → PrngReg) (c : Dev nD)

/-! ## The first stretch: index vectors and the normalisation -/

theorem W1_v5 : W1 m ρ c (Proc.devRef .tc main_v5) = val_main_v5 (F := Ideal) (m ((c : Thread nD τ).loc main_arg1)) := by
  show StableHlo.after hostOps0 (W0 m ρ c) (Proc.devRef .tc main_v5) = _
  after_results_simp <;> rfl

theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_simp <;> rfl

theorem W1_v28 : W1 m ρ c (Proc.devRef .tc main_v28) = val_main_v28 (F := Ideal) (m ((c : Thread nD τ).loc main_arg1)) := by
  show StableHlo.after hostOps0 (W0 m ρ c) (Proc.devRef .tc main_v28) = _
  after_results_simp <;> rfl

/-! ## Region 0 and the second stretch: the first layer -/

theorem W2_v29 : W2 m ρ c (Proc.devRef .tc main_v29) = val_main_v29 (F := Ideal) (m ((c : Thread nD τ).loc main_arg0)) (m ((c : Thread nD τ).loc main_arg2)) := by
  refine (W2_arr m ρ c 2).trans ?_
  refine (Tile0.final (V1 m ρ) c).trans ?_
  show lin (W1 m ρ c (Proc.devRef .tc main_arg0)) (W1 m ρ c (Proc.devRef .tc main_arg2)) = _
  rw [W1_main_arg0, W1_main_arg2]
  exact (dotGeneral_eq_lin _ rfl none .single _ _).symm

theorem W3_v43 : W3 m ρ c (Proc.devRef .tc main_v43) = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v43) = _
  after_results_simp
  rw [W2_main_v28, W2_main_v5, W2_main_v6, W2_v29, W1_v28, W1_v5, W1_v6]
  rfl

theorem W3_v44 : W3 m ρ c (Proc.devRef .tc main_v44) = val_main_v43 (F := Ideal) (m ((c : Thread nD τ).loc main_arg3)) := by
  show StableHlo.after hostOps1 (W2 m ρ c) (Proc.devRef .tc main_v44) = _
  after_results_simp
  rw [W2_main_arg3]
  exact RowOfVector.shapeCast_eq_broadcastInDim 128 _ _ _

/-! ## Region 1 and the third stretch: the second layer -/

theorem W4_v45 : W4 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ?_
  refine (Tile1.final (V3 m ρ) c).trans ?_
  show lin (addRowRelu (W3 m ρ c (Proc.devRef .tc main_v43)) (W3 m ρ c (Proc.devRef .tc main_v44))) (W3 m ρ c (Proc.devRef .tc main_arg4)) = _
  rw [W3_v43, W3_v44, W3_main_arg4]
  unfold val_main_v47 val_main_v46 val_main_v45 val_main_v44 val_main_call0_v0 val_main_call0_cst
  refine ((dotGeneral_eq_lin Cert.ReferenceIdeal.dot_S100000x128_S128x64_S100000x64_1_0_0_1_n_n rfl none .single _ _).trans ?_).symm
  rw [maximumf_addf_spread_eq_addRowRelu]

theorem W5_v59 : W5 m ρ c (Proc.devRef .tc main_v59) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v59) = _
  after_results_simp
  rw [W4_main_v28, W4_main_v5, W4_main_v6, W4_v45, W1_v28, W1_v5, W1_v6]
  rfl

theorem W5_v63 : W5 m ρ c (Proc.devRef .tc main_v63) = val_main_v61 (F := Ideal) (m ((c : Thread nD τ).loc main_arg5)) := by
  show StableHlo.after hostOps2 (W4 m ρ c) (Proc.devRef .tc main_v63) = _
  after_results_simp
  rw [W4_main_arg5]
  exact RowOfVector.shapeCast_eq_broadcastInDim 64 _ _ _

/-- The two halves of `Wp1` side by side. -/
def wcat (w : FVec Ideal S128x64 .f32) : FVec Ideal S64x128 .f32 :=
  concatenate S64x128 1 [⟨S64x64, extractStridedSlice S64x64 ![0, 0] w slices_S128x64_S64x64_0_0⟩,
    ⟨S64x64, extractStridedSlice S64x64 ![64, 0] w slices_S128x64_S64x64_64_0⟩] concatenates_S64x64_S64x64_S64x128_d1

theorem W5_v62 : W5 m ρ c (Proc.devRef .tc main_v62) = wcat (m ((c : Thread nD τ).loc main_arg6)) := by
  show StableHlo.after hostOps2 (W4 m ρ c) (Proc.devRef .tc main_v62) = _
  after_results
  rw [W4_main_arg6]
  rfl

/-! ## Region 2 and the fourth stretch: the per-node projections and their gathers -/

/-- The per-node projections: the node embeddings `agg2 + b2` times the side-by-side halves of `Wp1`. -/
theorem W6_v64 : W6 m ρ c (Proc.devRef .tc main_v64)
    = lin (M := 100000) (K := 64) (N := 128) (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wcat (m ((c : Thread nD τ).loc main_arg6))) := by
  refine (W6_arr m ρ c 3).trans ?_
  refine (Tile2.final (V5 m ρ) c).trans ?_
  show lin (addRow (W5 m ρ c (Proc.devRef .tc main_v59)) (W5 m ρ c (Proc.devRef .tc main_v63))) (W5 m ρ c (Proc.devRef .tc main_v62)) = _
  rw [W5_v59, W5_v63, W5_v62]
  unfold val_main_v63 val_main_v62
  rw [addf_spread_eq_addRow]

theorem W7_v75 : W7 m ρ c (Proc.devRef .tc main_v75)
    = Host.gather gather_S100000x64_S1000000x1_S1000000x64_1_0_n_n_0_1_164
        (extractStridedSlice S100000x64 ![0, 0] (W6 m ρ c (Proc.devRef .tc main_v64)) slices_S100000x128_S100000x64_0_0)
        (val_main_v71 (F := Ideal) (m ((c : Thread nD τ).loc main_arg1))) := by
  show StableHlo.after hostOps3 (W6 m ρ c) (Proc.devRef .tc main_v75) = _
  after_results_simp
  rw [W6_main_arg1]
  rfl

theorem W7_v84 : W7 m ρ c (Proc.devRef .tc main_v84)
    = Host.gather gather_S100000x64_S1000000x1_S1000000x64_1_0_n_n_0_1_164
        (extractStridedSlice S100000x64 ![0, 64] (W6 m ρ c (Proc.devRef .tc main_v64)) slices_S100000x128_S100000x64_0_64)
        (val_main_v80 (F := Ideal) (m ((c : Thread nD τ).loc main_arg1))) := by
  show StableHlo.after hostOps3 (W6 m ρ c) (Proc.devRef .tc main_v84) = _
  after_results_simp
  rw [W6_main_arg1]
  rfl

theorem W7_v86 : W7 m ρ c (Proc.devRef .tc main_v86) = val_main_v84 (F := Ideal) (m ((c : Thread nD τ).loc main_arg7)) := by
  show StableHlo.after hostOps3 (W6 m ρ c) (Proc.devRef .tc main_v86) = _
  after_results_simp
  rw [W6_main_arg7]
  exact RowOfVector.shapeCast_eq_broadcastInDim 64 _ _ _

theorem W7_v85 : W7 m ρ c (Proc.devRef .tc main_v85) = shapeCast S1x64 (m ((c : Thread nD τ).loc main_arg8)) shapeCasts_S64x1_S1x64 := by
  show StableHlo.after hostOps3 (W6 m ρ c) (Proc.devRef .tc main_v85) = _
  after_results_simp
  rw [W6_main_arg8]
  rfl

theorem W7_v87 : W7 m ρ c (Proc.devRef .tc main_v87) = val_main_v89 (F := Ideal) (m ((c : Thread nD τ).loc main_arg9)) := by
  show StableHlo.after hostOps3 (W6 m ρ c) (Proc.devRef .tc main_v87) = _
  after_results_simp
  rw [W6_main_arg9]
  exact RowOfVector.shapeCast_eq_broadcastInDim 1 _ _ _

/-! ## Region 3 and the last stretch: the result -/

theorem W8_v88 : W8 m ρ c (Proc.devRef .tc main_v88)
    = decode (M := 1000000) (K := 64) (W7 m ρ c (Proc.devRef .tc main_v75)) (W7 m ρ c (Proc.devRef .tc main_v84)) (W7 m ρ c (Proc.devRef .tc main_v86)) (W7 m ρ c (Proc.devRef .tc main_v85)) (W7 m ρ c (Proc.devRef .tc main_v87)) := by
  refine (W8_arr m ρ c 5).trans ?_
  exact Tile3.final (V7 m ρ) c

theorem W9_v89 : W9 m ρ c (Proc.devRef .tc main_v89) = shapeCast S1000000 (W8 m ρ c (Proc.devRef .tc main_v88)) shapeCasts_S1000000x1_S1000000 := by
  show StableHlo.after hostOps4 (W8 m ρ c) (Proc.devRef .tc main_v89) = _
  after_results_simp
  rfl

end Cert.KernelIdeal.Whole

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.Bridge.lean ====
/-
  The kernel's result and the reference's result, edge by edge.

  Both programs end with, for edge `e` with source row `s` and target row `d` of the node embeddings `z` (each index read
  signed and clamped into the table, as a gather reads it),

    `∑ k, max ((∑ j, z (s, j) * Wp1 (j, k) + ∑ j, z (d, j) * Wp1 (64 + j, k)) + bp1 k) 0 * Wp2 (k, 0) + bp2 0`.

  The kernel gets there by projecting every node's embedding once through the two halves of `Wp1` laid side by side and
  gathering the projections; the reference gathers the embeddings, joins the two rows of an edge into one row of length
  128 and multiplies by `Wp1`. The only law between the two is that a sum over 128 positions is the sum over the first 64
  plus the sum over the last 64 — associativity and commutativity of addition on the extended reals; no entry needs to
  be finite.
-/
import proofs.«127890_j10685878632451_2_alg».proof.Proof.KernelStages
import proofs.«127890_j10685878632451_2_alg».proof.Proof.LibRowGather
import Idealize.ShloMosaic.Lib.ValueLayout
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.ValueIdx Idealize.ShloMosaic.NodeRows Idealize.ShloMosaic.RowLaws Idealize.ShloMosaic.RowGather
open Cert.ReferenceIdeal.Read

/-! ## The two halves of a row of length 128 -/

/-- Position `j` of the first half. -/
def lo (j : Fin 64) : Fin 128 := ⟨j.val, by omega⟩
/-- Position `j` of the second half. -/
def hi (j : Fin 64) : Fin 128 := ⟨64 + j.val, by omega⟩

/-- A sum over 128 positions is the sum over the first 64 plus the sum over the last 64. -/
theorem sum_halves (f : Fin 128 → EReal) : ∑ j, f j = ∑ j : Fin 64, f (lo j) + ∑ j : Fin 64, f (hi j) :=
  Fin.sum_univ_add (a := 64) (b := 64) f

/-- The edge's result as a function of the node embeddings, the two index columns and the decoder's parameters. -/
def edgeOut (Z : FVec Ideal ⟨2, ![100000, 64]⟩ .f32) (iS iD : IVec ⟨2, ![1000000, 1]⟩ 32) (w6 : FVec Ideal ⟨2, ![128, 64]⟩ .f32)
    (b7 : FVec Ideal ⟨1, ![64]⟩ .f32) (w8 : FVec Ideal ⟨2, ![64, 1]⟩ .f32) (b9 : FVec Ideal ⟨1, ![1]⟩ .f32) (e : Fin 1000000) : EReal :=
  ∑ k : Fin 64, max ((∑ j : Fin 64, Z (ix2 (rowOf 100000 (by decide) (iS (ix2 e (0 : Fin 1)))) j) * w6 (ix2 (lo j) k)
        + ∑ j : Fin 64, Z (ix2 (rowOf 100000 (by decide) (iD (ix2 e (0 : Fin 1)))) j) * w6 (ix2 (hi j) k)) + b7 (ix1 k)) zeroWord
      * w8 (ix2 k (0 : Fin 1))
    + b9 (ix1 (0 : Fin 1))

/-! ## The kernel's side -/

/-- The side-by-side matrix at a column of its first half is the upper half of `Wp1`. -/
theorem wcat_lo (w : FVec Ideal S128x64 .f32) (j k : Fin 64) : wcat w (ix2 j (lo k)) = w (ix2 (lo j) k) := by
  unfold wcat
  refine (concatenate_pair_apply_left (t := S64x128) (s₁ := S64x64) (s₂ := S64x64) (1 : Fin 2) _ _ concatenates_S64x64_S64x64_S64x128_d1 (ix2 j (lo k)) rfl (ix2 j k) (fun b => ?_)).trans ?_
  · match b with
    | ⟨0, _⟩ => rfl
    | ⟨1, _⟩ => rfl
  · exact slice2_axis0_apply 0 w slices_S128x64_S64x64_0_0 j k (lo j) (by show j.val = 0 + j.val; omega)

/-- The side-by-side matrix at a column of its second half is the lower half of `Wp1`. -/
theorem wcat_hi (w : FVec Ideal S128x64 .f32) (j k : Fin 64) : wcat w (ix2 j (hi k)) = w (ix2 (hi j) k) := by
  unfold wcat
  refine (concatenate_pair_apply_right (t := S64x128) (s₁ := S64x64) (s₂ := S64x64) (1 : Fin 2) _ _ concatenates_S64x64_S64x64_S64x128_d1 (ix2 j (hi k)) rfl rfl (ix2 j k) (fun b hb => ?_) ?_).trans ?_
  · match b with
    | ⟨0, _⟩ => rfl
    | ⟨1, _⟩ => exact absurd rfl hb
  · show k.val + 64 = 64 + k.val; omega
  · exact slice2_axis0_apply 64 w slices_S128x64_S64x64_64_0 j k (hi j) rfl

/-- The first half of the per-node projections gathered along an index column, at `(e, k)`. -/
theorem proj_lo (Z : FVec Ideal S100000x64 .f32) (w : FVec Ideal S128x64 .f32) (idx : IVec S1000000x1 32) (e : Fin 1000000) (k : Fin 64) :
    Host.gather gather_S100000x64_S1000000x1_S1000000x64_1_0_n_n_0_1_164
        (extractStridedSlice S100000x64 ![0, 0] (lin (M := 100000) (K := 64) (N := 128) Z (wcat w)) slices_S100000x128_S100000x64_0_0)
        idx (ix2 e k)
      = ∑ j : Fin 64, Z (ix2 (rowOf 100000 (by decide) (idx (ix2 e (0 : Fin 1)))) j) * w (ix2 (lo j) k) := by
  refine (gather2_apply (N := 100000) (A := 64) (R := 1000000) (by decide) gather_S100000x64_S1000000x1_S1000000x64_1_0_n_n_0_1_164.wf _ idx e k).trans ?_
  refine (slice2_axis1_apply 0 _ slices_S100000x128_S100000x64_0_0 _ k (lo k) (by show k.val = 0 + k.val; omega)).trans ?_
  show ∑ j : Fin 64, Z (ix2 _ j) * wcat w (ix2 j (lo k)) = _
  exact Finset.sum_congr rfl fun j _ => by rw [wcat_lo]

/-- The second half of the per-node projections gathered along an index column, at `(e, k)`. -/
theorem proj_hi (Z : FVec Ideal S100000x64 .f32) (w : FVec Ideal S128x64 .f32) (idx : IVec S1000000x1 32) (e : Fin 1000000) (k : Fin 64) :
    Host.gather gather_S100000x64_S1000000x1_S1000000x64_1_0_n_n_0_1_164
        (extractStridedSlice S100000x64 ![0, 64] (lin (M := 100000) (K := 64) (N := 128) Z (wcat w)) slices_S100000x128_S100000x64_0_64)
        idx (ix2 e k)
      = ∑ j : Fin 64, Z (ix2 (rowOf 100000 (by decide) (idx (ix2 e (0 : Fin 1)))) j) * w (ix2 (hi j) k) := by
  refine (gather2_apply (N := 100000) (A := 64) (R := 1000000) (by decide) gather_S100000x64_S1000000x1_S1000000x64_1_0_n_n_0_1_164.wf _ idx e k).trans ?_
  refine (slice2_axis1_apply 64 _ slices_S100000x128_S100000x64_0_64 _ k (hi k) rfl).trans ?_
  show ∑ j : Fin 64, Z (ix2 _ j) * wcat w (ix2 j (hi k)) = _
  exact Finset.sum_congr rfl fun j _ => by rw [wcat_hi]

variable (m : (ℓ : Loc nD τ sig) → Buf (Elt Ideal) ℓ) (ρ : Dev nD → PrngReg) (c : Dev nD)

/-- The kernel's result at edge `e`. -/
theorem ker_apply (e : Fin 1000000) :
    W9 m ρ c (Proc.devRef .tc main_v89) (ix1 e)
      = edgeOut (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (val_main_v71 (F := Ideal) (m ((c : Thread nD τ).loc main_arg1))) (val_main_v80 (F := Ideal) (m ((c : Thread nD τ).loc main_arg1)))
          (m ((c : Thread nD τ).loc main_arg6)) (m ((c : Thread nD τ).loc main_arg7)) (m ((c : Thread nD τ).loc main_arg8)) (m ((c : Thread nD τ).loc main_arg9)) e := by
  rw [W9_v89]
  refine (shapeCast_apply _ shapeCasts_S1000000x1_S1000000 (ix1 e) (ix2 e (0 : Fin 1))
    (by rw [Shape.rowMajor_val_two, Shape.rowMajor_val_one]; show e.val * 1 + 0 = e.val; omega)).trans ?_
  rw [W8_v88, decode_apply, W7_v75, W7_v84, W7_v86, W7_v85, W7_v87, W6_v64]
  unfold edgeOut
  refine congrArg₂ (· + ·) (Finset.sum_congr rfl fun k _ => ?_) ?_
  · have hb : idx_main_v84 (ix2 (0 : Fin 1) k) = ix1 k := funext fun a => Fin.ext (by
      match a with
      | ⟨0, _⟩ => rfl)
    have hw : shapeCast S1x64 (m ((c : Thread nD τ).loc main_arg8)) shapeCasts_S64x1_S1x64 (ix2 (0 : Fin 1) k) = (m ((c : Thread nD τ).loc main_arg8)) (ix2 k (0 : Fin 1)) :=
      shapeCast_apply _ shapeCasts_S64x1_S1x64 (ix2 (0 : Fin 1) k) (ix2 k (0 : Fin 1))
        (by rw [Shape.rowMajor_val_two, Shape.rowMajor_val_two]; show k.val * 1 + 0 = 0 * 64 + k.val; omega)
    rw [proj_lo, proj_hi, val_main_v84_apply, hb, hw]
  · have h9 : idx_main_v89 (ix2 (0 : Fin 1) (0 : Fin 1)) = ix1 (0 : Fin 1) := funext fun a => Fin.ext (by
      match a with
      | ⟨0, _⟩ => rfl)
    rw [val_main_v89_apply, h9]

/-! ## The reference's side -/

section Reference

variable (x0 : FVec Ideal ⟨2, ![100000, 256]⟩ .f32) (x1 : IVec ⟨2, ![2, 1000000]⟩ 32) (x2 : FVec Ideal ⟨2, ![256, 128]⟩ .f32)
  (x3 : FVec Ideal ⟨1, ![128]⟩ .f32) (x4 : FVec Ideal ⟨2, ![128, 64]⟩ .f32) (x5 : FVec Ideal ⟨1, ![64]⟩ .f32)
  (x6 : FVec Ideal ⟨2, ![128, 64]⟩ .f32) (x7 : FVec Ideal ⟨1, ![64]⟩ .f32) (x8 : FVec Ideal ⟨2, ![64, 1]⟩ .f32) (x9 : FVec Ideal ⟨1, ![1]⟩ .f32)

/-- The joined row of edge `e` at a position of its first half is the source's embedding. -/
theorem zcat_lo (e : Fin 1000000) (j : Fin 64) :
    val_main_v82 (F := Ideal) x0 x1 x2 x3 x4 x5 (ix2 e (lo j))
      = val_main_v63 (F := Ideal) x0 x1 x2 x3 x4 x5 (ix2 (rowOf 100000 (by decide) (val_main_v71 (F := Ideal) x1 (ix2 e (0 : Fin 1)))) j) := by
  unfold val_main_v82
  refine (concatenate_pair_apply_left (t := ⟨2, ![1000000, 128]⟩) (s₁ := ⟨2, ![1000000, 64]⟩) (s₂ := ⟨2, ![1000000, 64]⟩) (1 : Fin 2) _ _ _ (ix2 e (lo j)) rfl (ix2 e j) (fun b => ?_)).trans ?_
  · match b with
    | ⟨0, _⟩ => rfl
    | ⟨1, _⟩ => rfl
  · unfold val_main_v72
    exact gather2_apply (N := 100000) (A := 64) (R := 1000000) (by decide) _ _ _ e j

/-- The joined row of edge `e` at a position of its second half is the target's embedding. -/
theorem zcat_hi (e : Fin 1000000) (j : Fin 64) :
    val_main_v82 (F := Ideal) x0 x1 x2 x3 x4 x5 (ix2 e (hi j))
      = val_main_v63 (F := Ideal) x0 x1 x2 x3 x4 x5 (ix2 (rowOf 100000 (by decide) (val_main_v80 (F := Ideal) x1 (ix2 e (0 : Fin 1)))) j) := by
  unfold val_main_v82
  refine (concatenate_pair_apply_right (t := ⟨2, ![1000000, 128]⟩) (s₁ := ⟨2, ![1000000, 64]⟩) (s₂ := ⟨2, ![1000000, 64]⟩) (1 : Fin 2) _ _ _ (ix2 e (hi j)) rfl rfl (ix2 e j) (fun b hb => ?_) ?_).trans ?_
  · match b with
    | ⟨0, _⟩ => rfl
    | ⟨1, _⟩ => exact absurd rfl hb
  · show j.val + 64 = 64 + j.val; omega
  · unfold val_main_v81
    exact gather2_apply (N := 100000) (A := 64) (R := 1000000) (by decide) _ _ _ e j

/-- The reference's result at edge `e`. -/
theorem ref_apply (e : Fin 1000000) :
    val_main_v92 (F := Ideal) x0 x1 x2 x3 x4 x5 x6 x7 x8 x9 (ix1 e)
      = edgeOut (val_main_v63 (F := Ideal) x0 x1 x2 x3 x4 x5) (val_main_v71 (F := Ideal) x1) (val_main_v80 (F := Ideal) x1) x6 x7 x8 x9 e := by
  rw [val_main_v92_apply, val_main_v91_apply, val_main_v88_apply, val_main_v90_apply, val_main_v89_apply]
  unfold edgeOut
  refine congrArg₂ (· + ·) (Finset.sum_congr rfl fun k _ => ?_) ?_
  · have hl : lidx_main_v88 (idx_main_v92 (ix1 e)) k = ix2 e k := funext fun a => Fin.ext (by
      match a with
      | ⟨0, _⟩ => exact Nat.div_one _
      | ⟨1, _⟩ => rfl)
    have hr : ridx_main_v88 (idx_main_v92 (ix1 e)) k = ix2 k (0 : Fin 1) := funext fun a => Fin.ext (by
      match a with
      | ⟨0, _⟩ => rfl
      | ⟨1, _⟩ => rfl)
    rw [hl, hr, val_main_v87_apply, val_main_v86_apply, val_main_v83_apply, val_main_v85_apply, val_main_v84_apply,
      val_main_call1_v0_apply, val_main_call1_cst_apply]
    refine congrArg₂ (fun a b => max (a + b) zeroWord * x8 (ix2 k (0 : Fin 1))) ?_ (congrArg _ (funext fun a => Fin.ext (by
      match a with
      | ⟨0, _⟩ => rfl)))
    rw [sum_halves]
    refine congrArg₂ (· + ·) (Finset.sum_congr rfl fun j _ => ?_) (Finset.sum_congr rfl fun j _ => ?_)
    · have h1 : lidx_main_v83 (ix2 e k) (lo j) = ix2 e (lo j) := funext fun a => Fin.ext (by
        match a with
        | ⟨0, _⟩ => rfl
        | ⟨1, _⟩ => rfl)
      have h2 : ridx_main_v83 (ix2 e k) (lo j) = ix2 (lo j) k := funext fun a => Fin.ext (by
        match a with
        | ⟨0, _⟩ => rfl
        | ⟨1, _⟩ => rfl)
      rw [h1, h2, zcat_lo]
    · have h1 : lidx_main_v83 (ix2 e k) (hi j) = ix2 e (hi j) := funext fun a => Fin.ext (by
        match a with
        | ⟨0, _⟩ => rfl
        | ⟨1, _⟩ => rfl)
      have h2 : ridx_main_v83 (ix2 e k) (hi j) = ix2 (hi j) k := funext fun a => Fin.ext (by
        match a with
        | ⟨0, _⟩ => rfl
        | ⟨1, _⟩ => rfl)
      rw [h1, h2, zcat_hi]
  · exact congrArg _ (funext fun a => Fin.ext (by
      match a with
      | ⟨0, _⟩ => rfl))

end Reference

/-! ## The two results are one array -/

/-- The kernel's result buffer after its run is the reference's result term of the same arguments. -/
theorem result_eq :
    W9 m ρ c (Proc.devRef .tc main_v89) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨e, rfl⟩ : ∃ e : Fin 1000000, i = ix1 e := ⟨i 0, eq_ix1 i⟩
  rw [ker_apply]
  exact (ref_apply _ _ _ _ _ _ _ _ _ _ e).symm

end Cert.KernelIdeal.Whole

end
-- ==== Proof.lean ====
/-
  The certificate of a two-layer graph convolution encoder with a link decoder: the kernel computes the same scores as
  its reference, over the extended reals.

  Both programs normalise the edges (self-loops appended, `norm = d⁻¹ᐟ²[src] · d⁻¹ᐟ²[dst]` with `d` the in-degrees, at least
  one), run two graph convolutions `agg (norm · (h · W)[src]) → dst` with a bias and a rectifier between them, and score
  every edge by a two-layer perceptron on the pair of its end points' embeddings.

  The kernel does the dense steps in four pipelined regions over blocks of 5000 rows: `x · W1`; `relu(agg1 + b1) · W2`;
  `(agg2 + b2) · [Wp1 upper | Wp1 lower]` per node; and per edge `relu(u[src] + v[dst] + bp1) · Wp2 + bp2` as a weighted
  lane sum. Each block step acts on rows alone, so a region leaves the same array as the whole-array operation; the
  gathers, scalings and scatter-adds between the regions are the reference's own operations on the same operands; a change
  of float format is the identity on the extended reals. The one rearrangement is in the decoder: the reference joins the
  two embeddings of an edge into one row of length 128 and multiplies by `Wp1`, the kernel multiplies each node's embedding by
  the two halves of `Wp1` beforehand and adds the two gathered projections — a sum over 128 positions split into its two
  halves. No step needs an entry to be finite.

  Frames: every weakly fair execution of each program terminates without a fault and leaves the arguments as launched.
  The idealization rewrote nothing, so it preserves the kernel by definition.
-/
import proofs.«127890_j10685878632451_2_alg».proof.Defs
import proofs.«127890_j10685878632451_2_alg».proof.Proof.Gen.Kernel
import proofs.«127890_j10685878632451_2_alg».proof.Proof.Gen.Kernel.Skeleton
import proofs.«127890_j10685878632451_2_alg».proof.Proof.Gen.Kernel.Launch
import proofs.«127890_j10685878632451_2_alg».proof.Proof.Gen.Kernel.Points
import proofs.«127890_j10685878632451_2_alg».proof.Proof.Gen.Kernel.Frame
import proofs.«127890_j10685878632451_2_alg».proof.Proof.Gen.KernelIdeal
import proofs.«127890_j10685878632451_2_alg».proof.Proof.Gen.KernelIdeal.Skeleton
import proofs.«127890_j10685878632451_2_alg».proof.Proof.Gen.KernelIdeal.Launch
import proofs.«127890_j10685878632451_2_alg».proof.Proof.Gen.KernelIdeal.Points
import proofs.«127890_j10685878632451_2_alg».proof.Proof.Gen.KernelIdeal.Frame
import proofs.«127890_j10685878632451_2_alg».proof.Proof.Gen.ReferenceIdeal
import proofs.«127890_j10685878632451_2_alg».proof.Proof.Gen.Pre_finite_inputs
import proofs.«127890_j10685878632451_2_alg».proof.Proof.Gen.ReferenceIdeal.Run
import proofs.«127890_j10685878632451_2_alg».proof.Proof.Gen.ReferenceIdeal.Read
import proofs.«127890_j10685878632451_2_alg».proof.Proof.KernelRun
import proofs.«127890_j10685878632451_2_alg».proof.Proof.Bridge
import Idealize.ShloMosaic.Adequacy
import Idealize.ShloMosaic.Init

noncomputable section

namespace Cert.Proof

open Idealize.ShloMosaic Idealize.SL.Sem

/-- The kernel as printed runs, nothing faulting, and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run and end with the same scores: the kernel's result buffer
    after the chain of its segments is the reference's result term of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v89),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v92_eq, h0, h1, h2, h3, h4, h5, h6, h7, h8, h9]
  exact (Cert.KernelIdeal.Whole.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
